-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768 : Shape := ⟨1, ![32768]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S16x512 : Shape := ⟨2, ![16, 512]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S16x512 : S_.BroadcastsInDim S16x512 (![] : Fin 0 → Fin S16x512.rank)
  reducesTo_S16x512_S_d0_1 : S16x512.ReducesTo [0, 1] S_

variable [Facts]

def fn_part2 {F : FTy → Type} [FloatOps F] (main_arg8 : FVec F S1024x512 .f32) (main_arg9 : FVec F S512 .f32) (main_arg10 : FVec F S16x512 .f32) (main_v33 : IVec S_ 1) : IVec S_ 1 :=
  let main_v34 : FVec F S1024x512 .f32 := Host.absf main_arg8
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S16x512 .f32 := Host.absf main_arg10
  let main_cst_16 : FVec F S_ .f32 := constant S_ .f32 0x7F800000#32
  let main_v45 : FVec F S16x512 .f32 := broadcastInDim S16x512 ![] bcast_S_S16x512 main_cst_16
  let main_v46 : IVec S16x512 1 := cmpf .olt main_v44 main_v45
  let main_c_17 : IVec S_ 1 := constantI S_ 1 1#1
  let main_v47 : IVec S_ 1 := (fun x v => Host.reduce IntOp.andi x v reducesTo_S16x512_S_d0_1 h_S_) main_v46 main_c_17
  let main_v48 : IVec S_ 1 := andi main_v43 main_v47
  main_v48

def fn_part1 {F : FTy → Type} [FloatOps F] (main_arg5 : FVec F S1024 .f32) (main_arg6 : FVec F S1024x512 .f32) (main_arg7 : FVec F S512 .f32) (main_arg8 : FVec F S1024x512 .f32) (main_arg9 : FVec F S512 .f32) (main_arg10 : FVec F S16x512 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x512 .f32 := Host.absf main_arg6
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_v33

def fn {F : FTy → Type} [FloatOps F] (main_arg0 : FVec F S32768x1024 .f32) (main_arg1 : IVec S32768 32) (main_arg2 : FVec F S1024x2048 .f32) (main_arg3 : FVec F S2048 .f32) (main_arg4 : FVec F S2048x1024 .f32) (main_arg5 : FVec F S1024 .f32) (main_arg6 : FVec F S1024x512 .f32) (main_arg7 : FVec F S512 .f32) (main_arg8 : FVec F S1024x512 .f32) (main_arg9 : FVec F S512 .f32) (main_arg10 : FVec F S16x512 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x2048 .f32 := Host.absf main_arg2
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg5 main_arg6 main_arg7 main_arg8 main_arg9 main_arg10 main_v13 main_v16
-- ==== Kernel.lean ====
abbrev S32768x1024 : Shape := ⟨2, ![32768, 1024]⟩
abbrev S32768 : Shape := ⟨1, ![32768]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S16x512 : Shape := ⟨2, ![16, 512]⟩
abbrev S16x1x2048 : Shape := ⟨3, ![16, 1, 2048]⟩
abbrev S1x2048 : Shape := ⟨2, ![1, 2048]⟩
abbrev S1x1024 : Shape := ⟨2, ![1, 1024]⟩
abbrev S1x512 : Shape := ⟨2, ![1, 512]⟩
abbrev S1x1x2048 : Shape := ⟨3, ![1, 1, 2048]⟩
abbrev S16x1024 : Shape := ⟨2, ![16, 1024]⟩
abbrev S2048x2048 : Shape := ⟨2, ![2048, 2048]⟩
abbrev S16x2048 : Shape := ⟨2, ![16, 2048]⟩

abbrev nBuf : Space → Nat
  | .hbm => 22
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S1024x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S1024x512, .f32⟩
  | .hbm, ⟨9, _⟩ => ⟨S512, .f32⟩
  | .hbm, ⟨10, _⟩ => ⟨S16x512, .f32⟩
  | .hbm, ⟨11, _⟩ => ⟨S16x1x2048, .i32⟩
  | .hbm, ⟨12, _⟩ => ⟨S32768x1024, .bf16⟩
  | .hbm, ⟨13, _⟩ => ⟨S1024x2048, .bf16⟩
  | .hbm, ⟨14, _⟩ => ⟨S1x2048, .f32⟩
  | .hbm, ⟨15, _⟩ => ⟨S2048x1024, .bf16⟩
  | .hbm, ⟨16, _⟩ => ⟨S1x1024, .f32⟩
  | .hbm, ⟨17, _⟩ => ⟨S1024x512, .bf16⟩
  | .hbm, ⟨18, _⟩ => ⟨S1x512, .f32⟩
  | .hbm, ⟨19, _⟩ => ⟨S1024x512, .bf16⟩
  | .hbm, ⟨20, _⟩ => ⟨S1x512, .f32⟩
  | .hbm, ⟨21, _⟩ => ⟨S16x512, .f32⟩
  | .local _ .vmem, ⟨0, _⟩ => ⟨S2048x1024, .bf16⟩
  | .local _ .vmem, ⟨1, _⟩ => ⟨S2048x1024, .bf16⟩
  | .local _ .vmem, ⟨2, _⟩ => ⟨S1x1x2048, .i32⟩
  | .local _ .vmem, ⟨3, _⟩ => ⟨S1x1x2048, .i32⟩
  | .local _ .vmem, ⟨4, _⟩ => ⟨S1024x2048, .bf16⟩
  | .local _ .vmem, ⟨5, _⟩ => ⟨S1x2048, .f32⟩
  | .local _ .vmem, ⟨6, _⟩ => ⟨S2048x1024, .bf16⟩
  | .local _ .vmem, ⟨7, _⟩ => ⟨S1x1024, .f32⟩
  | .local _ .vmem, ⟨8, _⟩ => ⟨S1024x512, .bf16⟩
  | .local _ .vmem, ⟨9, _⟩ => ⟨S1x512, .f32⟩
  | .local _ .vmem, ⟨10, _⟩ => ⟨S1024x512, .bf16⟩
  | .local _ .vmem, ⟨11, _⟩ => ⟨S1x512, .f32⟩
  | .local _ .vmem, ⟨12, _⟩ => ⟨S16x512, .f32⟩
  | .local _ .vmem, ⟨13, _⟩ => ⟨S16x512, .f32⟩
  | .local _ .vmem, ⟨14, _⟩ => ⟨S16x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v39 : BitVec 1 := Scalar.cmpi .eq arg0 c15_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  shapeCasts_S32768_S16x1x2048 : S32768.ShapeCasts S16x1x2048
  bitsLt_bf16_f32 : FTy.bits .bf16 < FTy.bits .f32
  shapeCasts_S2048_S1x2048 : S2048.ShapeCasts S1x2048
  shapeCasts_S1024_S1x1024 : S1024.ShapeCasts S1x1024
  shapeCasts_S512_S1x512 : S512.ShapeCasts S1x512
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  iota_S16x2048_d0_w32 : S16x2048.Iotas .tc 32 [0]
  broadcasts_S1x2048_S16x2048 : S1x2048.Broadcasts S16x2048
  natLt_1_32 : 1 < 32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  inb_S16x512_S16x512_0_0 : ∀ a, (![0, 0] : Fin 2 → Nat) a + S16x512.size a ≤ S16x512.size a
  h_S16x512 : 0 < S16x512.numel
  dot_S2048x1024_S1024x2048_S2048x2048_1_0_0_1_n_n_wf : DotDims.WF S2048x1024 S1024x2048 S2048x2048 [1] [0] [0] [1] [] []
  dot_S2048x2048_S2048x1024_S2048x1024_1_0_0_1_n_n_wf : DotDims.WF S2048x2048 S2048x1024 S2048x1024 [1] [0] [0] [1] [] []
  dot_S16x2048_S2048x1024_S16x1024_1_0_0_1_n_n_wf : DotDims.WF S16x2048 S2048x1024 S16x1024 [1] [0] [0] [1] [] []
  dot_S16x1024_S1024x512_S16x512_1_0_0_1_n_n_wf : DotDims.WF S16x1024 S1024x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .bf16 = 32 ∨ (Rect.block (s := S32768x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S16x1x2048.size a
  hwx0_1 : ∀ i : grid0.Coords, EltTy.bits .i32 = 32 ∨ (Rect.block (s := S16x1x2048) S1x1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .bf16 = 32 ∨ (Rect.block (s := S2048x1024) S2048x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x512.size a
  hwx0_8 : ∀ i : grid0.Coords, EltTy.bits .bf16 = 32 ∨ (Rect.block (s := S1024x512) S1024x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16x512.size a ≤ S16x512.size a
  hwx0_10 : ∀ i : grid0.Coords, EltTy.bits .f32 = 32 ∨ (Rect.block (s := S16x512) S16x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x512.size a ≤ S16x512.size a
  hwx0_11 : ∀ i : grid0.Coords, EltTy.bits .f32 = 32 ∨ (Rect.block (s := S16x512) S16x512.size (cc0_transform_11 i) (hinb0_11 i)).WholeWords (EltTy.packing .f32)

variable [Facts₀]

def dot_S2048x1024_S1024x2048_S2048x2048_1_0_0_1_n_n : DotDims S2048x1024 S1024x2048 S2048x2048 where
  lhsContracting := [1]
  rhsContracting := [0]
  lhsNonContracting := [0]
  rhsNonContracting := [1]
  lhsBatch := []
  rhsBatch := []
  wf := dot_S2048x1024_S1024x2048_S2048x2048_1_0_0_1_n_n_wf
def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf
def dot_S16x2048_S2048x1024_S16x1024_1_0_0_1_n_n : DotDims S16x2048 S2048x1024 S16x1024 where
  lhsContracting := [1]
  rhsContracting := [0]
  lhsNonContracting := [0]
  rhsNonContracting := [1]
  lhsBatch := []
  rhsBatch := []
  wf := dot_S16x2048_S2048x1024_S16x1024_1_0_0_1_n_n_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf

abbrev win0_0 : Pipeline.Window sig grid0 :=
  Pipeline.Window.ofSpec (Memref.whole main_call0_v1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v7) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v8) S1024x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v9) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S16x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S16x512.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | ⟨_ + 12, h⟩ => absurd h (Nat.not_lt.2 (Nat.le_add_left _ _))

class Facts : Prop extends Facts₀ where

variable [Facts]
-- ==== ReferenceIdeal.lean ====
abbrev S32768x1024 : Shape := ⟨2, ![32768, 1024]⟩
abbrev S32768 : Shape := ⟨1, ![32768]⟩
abbrev S1024x2048 : Shape := ⟨2, ![1024, 2048]⟩
abbrev S2048 : Shape := ⟨1, ![2048]⟩
abbrev S2048x1024 : Shape := ⟨2, ![2048, 1024]⟩
abbrev S1024 : Shape := ⟨1, ![1024]⟩
abbrev S1024x512 : Shape := ⟨2, ![1024, 512]⟩
abbrev S512 : Shape := ⟨1, ![512]⟩
abbrev S16x512 : Shape := ⟨2, ![16, 512]⟩
abbrev S32768x2048 : Shape := ⟨2, ![32768, 2048]⟩
abbrev S1x2048 : Shape := ⟨2, ![1, 2048]⟩
abbrev S_ : Shape := ⟨0, ![]⟩
abbrev S1x1024 : Shape := ⟨2, ![1, 1024]⟩
abbrev S16x1024 : Shape := ⟨2, ![16, 1024]⟩
abbrev S32768x1 : Shape := ⟨2, ![32768, 1]⟩
abbrev S1x512 : Shape := ⟨2, ![1, 512]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .i32⟩
  | .hbm, ⟨2, _⟩ => ⟨S1024x2048, .f32⟩
  | .hbm, ⟨3, _⟩ => ⟨S2048, .f32⟩
  | .hbm, ⟨4, _⟩ => ⟨S2048x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S1024x512, .f32⟩
  | .hbm, ⟨9, _⟩ => ⟨S512, .f32⟩
  | .hbm, ⟨10, _⟩ => ⟨S16x512, .f32⟩
  | .hbm, ⟨11, _⟩ => ⟨S32768x2048, .f32⟩
  | .hbm, ⟨12, _⟩ => ⟨S1x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S16x1024, .f32⟩
  | .hbm, ⟨27, _⟩ => ⟨S32768x1, .i32⟩
  | .hbm, ⟨28, _⟩ => ⟨S16x1024, .f32⟩
  | .hbm, ⟨29, _⟩ => ⟨S16x512, .f32⟩
  | .hbm, ⟨30, _⟩ => ⟨S1x512, .f32⟩
  | .hbm, ⟨31, _⟩ => ⟨S16x512, .f32⟩
  | .hbm, ⟨32, _⟩ => ⟨S16x512, .f32⟩
  | .hbm, ⟨33, _⟩ => ⟨S16x512, .f32⟩
  | .hbm, ⟨34, _⟩ => ⟨S1x512, .f32⟩
  | .hbm, ⟨35, _⟩ => ⟨S16x512, .f32⟩
  | .hbm, ⟨36, _⟩ => ⟨S16x512, .f32⟩
  | .hbm, ⟨37, _⟩ => ⟨S16x512, .f32⟩
  | .hbm, ⟨38, _⟩ => ⟨S16x512, .f32⟩
  | .hbm, ⟨39, _⟩ => ⟨S_, .f32⟩
  | .hbm, ⟨40, _⟩ => ⟨S16x512, .f32⟩
  | .hbm, ⟨41, _⟩ => ⟨S16x512, .f32⟩
  | .hbm, ⟨42, _⟩ => ⟨S16x512, .f32⟩
  | .hbm, ⟨43, _⟩ => ⟨S16x512, .f32⟩
  | .hbm, ⟨44, _⟩ => ⟨S16x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S_S16x1024 : S_.BroadcastsInDim S16x1024 (![] : Fin 0 → Fin S16x1024.rank)
  bcast_S32768_S32768x1_0 : S32768.BroadcastsInDim S32768x1 (![0] : Fin 1 → Fin S32768x1.rank)
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  dot_S32768x1024_S1024x2048_S32768x2048_1_0_0_1_n_n_wf : DotDims.WF S32768x1024 S1024x2048 S32768x2048 [1] [0] [0] [1] [] []
  dot_S32768x2048_S2048x1024_S32768x1024_1_0_0_1_n_n_wf : DotDims.WF S32768x2048 S2048x1024 S32768x1024 [1] [0] [0] [1] [] []
  scatter_S16x1024_S32768x1_S32768x1024_1_0_0_1_wf : ScatterDims.WF S16x1024 S32768x1 S32768x1024 [1] [0] [0] 1
  dot_S16x1024_S1024x512_S16x512_1_0_0_1_n_n_wf : DotDims.WF S16x1024 S1024x512 S16x512 [1] [0] [0] [1] [] []

variable [Facts₀]

def dot_S32768x1024_S1024x2048_S32768x2048_1_0_0_1_n_n : DotDims S32768x1024 S1024x2048 S32768x2048 where
  lhsContracting := [1]
  rhsContracting := [0]
  lhsNonContracting := [0]
  rhsNonContracting := [1]
  lhsBatch := []
  rhsBatch := []
  wf := dot_S32768x1024_S1024x2048_S32768x2048_1_0_0_1_n_n_wf
def dot_S32768x2048_S2048x1024_S32768x1024_1_0_0_1_n_n : DotDims S32768x2048 S2048x1024 S32768x1024 where
  lhsContracting := [1]
  rhsContracting := [0]
  lhsNonContracting := [0]
  rhsNonContracting := [1]
  lhsBatch := []
  rhsBatch := []
  wf := dot_S32768x2048_S2048x1024_S32768x1024_1_0_0_1_n_n_wf
def scatter_S16x1024_S32768x1_S32768x1024_1_0_0_1 : ScatterDims S16x1024 S32768x1 S32768x1024 where
  updateWindowDims := [1]
  insertedWindowDims := [0]
  scatterDimsToOperandDims := [0]
  indexVectorDim := 1
  wf := scatter_S16x1024_S32768x1_S32768x1024_1_0_0_1_wf
def dot_S16x1024_S1024x512_S16x512_1_0_0_1_n_n : DotDims S16x1024 S1024x512 S16x512 where
  lhsContracting := [1]
  rhsContracting := [0]
  lhsNonContracting := [0]
  rhsNonContracting := [1]
  lhsBatch := []
  rhsBatch := []
  wf := dot_S16x1024_S1024x512_S16x512_1_0_0_1_n_n_wf

class Facts : Prop extends Facts₀ where

variable [Facts]
-- ==== Proof.LibBlockedSum.lean ====
/-
  A sum over `N * R` consecutive indices taken block by block, and a running sum.

  Index `r` of `Fin (N * R)` is `R * t + p` for exactly one block `t : Fin N` and one position `p : Fin R` inside the
  block. So a sum over all of `Fin (N * R)`, in an additive commutative monoid, is the sum over the blocks of each
  block's sum. The two instances spell this out for 16384 = 32 · 512 and 16384 = 8 · 2048.

  A sequence that starts at the first term and adds the next term at every step is the sequence of partial sums.
-/
import Mathlib.Algebra.BigOperators.Fin
import Mathlib.Logic.Equiv.Fin.Basic

namespace Cert.BlockedSum

/-- Position `p` of block `t` is an index below `N * R`. -/
theorem block_lt {N R : ℕ} (t : Fin N) (p : Fin R) : R * t.val + p.val < N * R :=
  calc R * t.val + p.val < R * t.val + R := Nat.add_lt_add_left p.isLt _
    _ = R * (t.val + 1) := (Nat.mul_succ R t.val).symm
    _ ≤ R * N := Nat.mul_le_mul_left R t.isLt
    _ = N * R := Nat.mul_comm R N

/-- A sum over `Fin (N * R)` is the sum over the `N` blocks of the sums over the `R` positions of a block. -/
theorem sum_by_blocks {M : Type*} [AddCommMonoid M] {N R : ℕ} (H : Fin (N * R) → M) :
    ∑ r : Fin (N * R), H r = ∑ t : Fin N, ∑ p : Fin R, H ⟨R * t.val + p.val, block_lt t p⟩ := by
  rw [← Equiv.sum_comp finProdFinEquiv H, Fintype.sum_prod_type]
  refine Finset.sum_congr rfl fun t _ => Finset.sum_congr rfl fun p _ => congrArg H (Fin.ext ?_)
  show p.val + R * t.val = R * t.val + p.val
  exact Nat.add_comm _ _

/-- 16384 indices as 32 blocks of 512. -/
theorem sum_32x512 {M : Type*} [AddCommMonoid M] (H : Fin 16384 → M) :
    ∑ r : Fin 16384, H r = ∑ t : Fin 32, ∑ p : Fin 512, H ⟨512 * t.val + p.val, by omega⟩ :=
  sum_by_blocks (N := 32) (R := 512) H

/-- 16384 indices as 8 blocks of 2048. -/
theorem sum_8x2048 {M : Type*} [AddCommMonoid M] (H : Fin 16384 → M) :
    ∑ r : Fin 16384, H r = ∑ t : Fin 8, ∑ p : Fin 2048, H ⟨2048 * t.val + p.val, by omega⟩ :=
  sum_by_blocks (N := 8) (R := 2048) H

/-- A sequence with `acc 0 = b 0` and `acc (n + 1) = acc n + b (n + 1)` is the sequence of partial sums of `b`. -/
theorem running_sum {M : Type*} [AddCommMonoid M] (acc b : ℕ → M) (h0 : acc 0 = b 0)
    (hs : ∀ n, acc (n + 1) = acc n + b (n + 1)) (n : ℕ) : acc n = ∑ s ∈ Finset.range (n + 1), b s := by
  induction n with
  | zero => rw [h0, Finset.sum_range_one]
  | succ n ih =>
    rw [hs, ih]
    exact (Finset.sum_range_succ b (n + 1)).symm

end Cert.BlockedSum
-- ==== Proof.Spec.lean ====
/-
  The mathematics both programs compute, stated once over the extended reals.

  A node `r` of 32768 carries a feature row `X r`. Two dense layers with a rectified bias follow:
  `hidden1 r k = max (Σ_j X r j · W1 j k + b1 k) 0`, `hidden2 r d = max (Σ_k hidden1 r k · W2 k d + b2 d) 0`.
  Every node names a graph by a signed 32-bit word; a graph `b` of 16 pools (sums) the second hidden rows of the
  nodes whose word, read signed, is `b` — a word outside `0 … 15` belongs to no graph and is dropped. The head is
  `zMean + exp (−½ · |zVar|) · eps`, with `zMean = pooled · Wm + bm` and `zVar = pooled · Wv + bv`.

  The pooled sum may be taken over all nodes at once, or tile by tile of 2048 nodes into a running sum that
  starts at zero: the two agree because addition of extended reals is associative and commutative and `0 · x = 0`,
  `1 · x = x` hold for every extended real (no finiteness is needed). The exponent may be written
  `(−½) · |z|` or `½ · (−|z|)`: the word of `−0.5` denotes the negative of the word of `0.5`.
-/
import Idealize.ShloMosaic.PureOps.Ideal
import Idealize.ShloMosaic.PureOps.Ideal.Laws
import Idealize.ShloMosaic.Lib.ValueIdx
import proofs.«109203_g44203803410838_cont_8to1_c_926_9_alg».proof.Proof.LibBlockedSum

noncomputable section

open scoped BigOperators

namespace Cert.PoolHead

open Idealize.ShloMosaic Idealize.ShloMosaic.ValueIdx

/-- A matrix and a vector of extended reals over literal extents. -/
abbrev Mat (a b : Nat) : Type := (⟨2, ![a, b]⟩ : Shape).Idx → EReal
abbrev Row (a : Nat) : Type := (⟨1, ![a]⟩ : Shape).Idx → EReal

/-- The eleven argument arrays. -/
structure Args where
  X : Mat 32768 1024
  seg : (⟨1, ![32768]⟩ : Shape).Idx → BitVec 32
  W1 : Mat 1024 2048
  b1 : Row 2048
  W2 : Mat 2048 1024
  b2 : Row 1024
  Wm : Mat 1024 512
  bm : Row 512
  Wv : Mat 1024 512
  bv : Row 512
  eps : Mat 16 512

/-- The words of `0.0`, `-0.5` and `0.5`, as the programs spell them. -/
def zero32 : EReal := Ideal.ofBits .f32 0x00000000#32
def negHalf : EReal := Ideal.ofBits .f32 0xBF000000#32
def half : EReal := Ideal.ofBits .f32 0x3F000000#32

theorem zero32_eq : zero32 = 0 := Ideal.ofBits_zero_f32

/-- The first hidden layer at node `r`, unit `k`. -/
def hidden1 (a : Args) (r : Fin 32768) (k : Fin 2048) : EReal :=
  max (∑ j : Fin 1024, a.X (ix2 r j) * a.W1 (ix2 j k) + a.b1 (ix1 k)) zero32

/-- The second hidden layer at node `r`, unit `d`. -/
def hidden2 (a : Args) (r : Fin 32768) (d : Fin 1024) : EReal :=
  max (∑ k : Fin 2048, hidden1 a r k * a.W2 (ix2 k d) + a.b2 (ix1 d)) zero32

/-- The word `w`, read signed, names graph `b`. -/
def names (w : BitVec 32) (b : Fin 16) : Prop := w.toInt = (b.val : Int)

instance (w : BitVec 32) (b : Fin 16) : Decidable (names w b) := by unfold names; infer_instance

/-- The indicator of `names`, as an extended real. -/
def ind (w : BitVec 32) (b : Fin 16) : EReal := if names w b then 1 else 0

/-- Graph `b`'s pooled row: the sum over all nodes that name `b`. -/
def pooled (a : Args) (b : Fin 16) (d : Fin 1024) : EReal :=
  ∑ r : Fin 32768, if names (a.seg (ix1 r)) b then hidden2 a r d else 0

/-- Node `q` of tile `t` (2048 nodes a tile). -/
def row (t : Fin 16) (q : Fin 2048) : Fin 32768 := ⟨2048 * t.val + q.val, by omega⟩

/-- What tile `t` adds to graph `b`'s pooled row: an indicator row times the tile's second hidden rows. -/
def tileTerm (a : Args) (t : Fin 16) (b : Fin 16) (d : Fin 1024) : EReal :=
  ∑ q : Fin 2048, ind (a.seg (ix1 (row t q))) b * hidden2 a (row t q) d

/-- `tileTerm` at a natural number (zero past the last tile). -/
def tileTermN (a : Args) (n : ℕ) (b : Fin 16) (d : Fin 1024) : EReal :=
  if h : n < 16 then tileTerm a ⟨n, h⟩ b d else 0

/-- The running sum after tile `n`: it starts from the zero word and adds one tile's term at a time. -/
def accAfter (a : Args) : ℕ → Fin 16 → Fin 1024 → EReal
  | 0 => fun b d => zero32 + tileTermN a 0 b d
  | n + 1 => fun b d => accAfter a n b d + tileTermN a (n + 1) b d

theorem accAfter_zero (a : Args) (b : Fin 16) (d : Fin 1024) :
    accAfter a 0 b d = zero32 + tileTerm a ⟨0, by omega⟩ b d := by
  show zero32 + tileTermN a 0 b d = _
  unfold tileTermN; rw [dif_pos (by omega : 0 < 16)]

theorem accAfter_succ (a : Args) (n : ℕ) (h : n + 1 < 16) (b : Fin 16) (d : Fin 1024) :
    accAfter a (n + 1) b d = accAfter a n b d + tileTerm a ⟨n + 1, h⟩ b d := by
  show accAfter a n b d + tileTermN a (n + 1) b d = _
  unfold tileTermN; rw [dif_pos h]

/-- One tile's term is the tile's share of the pooled sum. -/
theorem tileTerm_eq (a : Args) (t : Fin 16) (b : Fin 16) (d : Fin 1024) :
    tileTerm a t b d = ∑ q : Fin 2048, if names (a.seg (ix1 (row t q))) b then hidden2 a (row t q) d else 0 := by
  unfold tileTerm ind
  refine Finset.sum_congr rfl fun q _ => ?_
  by_cases h : names (a.seg (ix1 (row t q))) b
  · rw [if_pos h, if_pos h, one_mul]
  · rw [if_neg h, if_neg h, zero_mul]

/-- The pooled sum, tile by tile. -/
theorem pooled_eq_sum_tiles (a : Args) (b : Fin 16) (d : Fin 1024) :
    pooled a b d = ∑ t : Fin 16, tileTerm a t b d := by
  unfold pooled
  rw [Cert.BlockedSum.sum_by_blocks (N := 16) (R := 2048)
    (fun r : Fin 32768 => if names (a.seg (ix1 r)) b then hidden2 a r d else 0)]
  refine Finset.sum_congr rfl fun t _ => ?_
  rw [tileTerm_eq]
  rfl

/-- After the last tile the running sum is the pooled sum. -/
theorem accAfter_last (a : Args) (b : Fin 16) (d : Fin 1024) : accAfter a 15 b d = pooled a b d := by
  have hrun := Cert.BlockedSum.running_sum (fun n => accAfter a n b d) (fun n => tileTermN a n b d)
    (by show zero32 + tileTermN a 0 b d = _; rw [zero32_eq, zero_add]) (fun n => rfl) 15
  rw [hrun, pooled_eq_sum_tiles, Finset.sum_range]
  refine Finset.sum_congr rfl fun t _ => ?_
  unfold tileTermN; rw [dif_pos t.isLt]

/-- The mean and the variance heads over a pooled matrix `g`. -/
def zMean (a : Args) (g : Fin 16 → Fin 1024 → EReal) (b : Fin 16) (l : Fin 512) : EReal :=
  ∑ d : Fin 1024, g b d * a.Wm (ix2 d l) + a.bm (ix1 l)
def zVar (a : Args) (g : Fin 16 → Fin 1024 → EReal) (b : Fin 16) (l : Fin 512) : EReal :=
  ∑ d : Fin 1024, g b d * a.Wv (ix2 d l) + a.bv (ix1 l)

/-- The sampled head, the exponent written `(−½) · |z|`. -/
def head (a : Args) (g : Fin 16 → Fin 1024 → EReal) (b : Fin 16) (l : Fin 512) : EReal :=
  zMean a g b l + Ideal.exp (negHalf * max (zVar a g b l) (-(zVar a g b l))) * a.eps (ix2 b l)

/-- The same head, the exponent written `½ · (−|z|)`. -/
def head' (a : Args) (g : Fin 16 → Fin 1024 → EReal) (b : Fin 16) (l : Fin 512) : EReal :=
  zMean a g b l + Ideal.exp (half * -(max (zVar a g b l) (-(zVar a g b l)))) * a.eps (ix2 b l)

/-- The word of `-0.5` denotes the negative of what the word of `0.5` denotes. -/
theorem negHalf_eq : negHalf = -half := by
  unfold negHalf half
  have h1 : Ideal.ofBits .f32 0xBF000000#32 = ((-(1/2 : ℝ) : ℝ) : EReal) := by
    simp [Ideal.ofBits, Ideal.ieee, -EReal.coe_mul]; norm_num
  have h2 : Ideal.ofBits .f32 0x3F000000#32 = (((1/2 : ℝ) : ℝ) : EReal) := by
    simp [Ideal.ofBits, Ideal.ieee, -EReal.coe_mul]; norm_num
  rw [h1, h2, EReal.coe_neg]

theorem head_eq_head' (a : Args) (g : Fin 16 → Fin 1024 → EReal) (b : Fin 16) (l : Fin 512) :
    head a g b l = head' a g b l := by
  unfold head head'
  rw [negHalf_eq, EReal.neg_mul, mul_neg]

/-- THE RESULT: the head over the pooled rows, as one array of the arguments. -/
def result (a : Args) : Mat 16 512 := fun i => head a (pooled a) (i 0) (i 1)

end Cert.PoolHead

end
-- ==== Proof.KArgs.lean ====
import proofs.«109203_g44203803410838_cont_8to1_c_926_9_alg».proof.Proof.Gen.KernelIdeal.Launch
import proofs.«109203_g44203803410838_cont_8to1_c_926_9_alg».proof.Proof.Spec

noncomputable section

open scoped BigOperators

namespace Cert.PoolHead.K

open Cert.KernelIdeal Cert.KernelIdeal.Gen Idealize.ShloMosaic Idealize.ShloMosaic.ValueIdx Idealize.SL.Sem

/-- The eleven argument arrays as the kernel's memory holds them on core `c`, in the order of the specification. -/
def argsOf (m : (ℓ : Loc nD τ sig) → Buf (Elt Ideal) ℓ) (c : Dev nD) : Cert.PoolHead.Args :=
  ⟨m ((c.tc : Thread nD τ).loc main_arg0), m ((c.tc : Thread nD τ).loc main_arg1), m ((c.tc : Thread nD τ).loc main_arg2),
   m ((c.tc : Thread nD τ).loc main_arg3), m ((c.tc : Thread nD τ).loc main_arg4), m ((c.tc : Thread nD τ).loc main_arg5),
   m ((c.tc : Thread nD τ).loc main_arg6), m ((c.tc : Thread nD τ).loc main_arg7), m ((c.tc : Thread nD τ).loc main_arg8),
   m ((c.tc : Thread nD τ).loc main_arg9), m ((c.tc : Thread nD τ).loc main_arg10)⟩

/-- A grid point as a tile number below 16. -/
def tileOf (t : Fin cfg0.N) : Fin 16 := ⟨t.val, lt_of_lt_of_eq t.isLt N_0⟩

end Cert.PoolHead.K

end
-- ==== Proof.Pieces.lean ====
import proofs.«109203_g44203803410838_cont_8to1_c_926_9_alg».proof.Proof.Gen.KernelIdeal.Frame
import Idealize.ShloMosaic.Lib.Pipeline.Value
import Idealize.ShloMosaic.Lib.Tactic

noncomputable section

open scoped BigOperators

namespace Cert.PoolHead.K

open Cert.KernelIdeal Cert.KernelIdeal.Gen Idealize.ShloMosaic Idealize.ShloMosaic.TcCoe Idealize.SL.Sem

variable {F : FTy → Type} [FloatOps F]

/-- The all-zero offset of a rank-2 block. -/
private theorem hz : (![0, 0] : Fin 2 → Nat) = fun _ => 0 := funext fun a => by fin_cases a <;> rfl

/-- The all-zero offset of a rank-3 block. -/
private theorem hz3 : (![0, 0, 0] : Fin 3 → Nat) = fun _ => 0 := funext fun a => by fin_cases a <;> rfl

/-- At the first point the scratch is stored with the zero block, read back, and left at the tile's arithmetic over it. -/
theorem sout_A (c : Dev nD) (i : grid0.Coords) (arg1 : Memref sig .tc .vmem S2048x1024 .bf16) (harg1 : arg1.IsWhole) (arg2 : Memref sig .tc .vmem S1x1x2048 .i32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x1024 .f32) (harg13 : arg13.IsWhole) (hc0 : cond0_0 i) (hc1 : ¬cond0_1 i)
    (x0 : Vec F S2048x1024 .bf16) (x1 : Vec F S1x1x2048 .i32) (x2 : Vec F S1024x2048 .bf16) (x3 : Vec F S1x2048 .f32) (x4 : Vec F S2048x1024 .bf16) (x5 : Vec F S1x1024 .f32) (x6 : Vec F S1024x512 .bf16) (x7 : Vec F S1x512 .f32) (x8 : Vec F S1024x512 .bf16) (x9 : Vec F S1x512 .f32) (x10 : Vec F S16x512 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10
      = k0_pay1 (k0_pay4 x0 x2 x3 x4 x5 x1 (k0_pay3 (F := F))) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10)]
  unfold kernelRun0_A
  dsimp only
  sl_unfold_words
  rw [View.canon_cons_unit_zero (S := S16x1024) hz, View.readCov_unit_zero (S := S16x1024) _ hz]
  simp only [View.readAt_eq_ld, harg1.read_unread, harg2.read_unread, harg3.read_unread, harg4.read_unread,
    harg5.read_unread, harg6.read_unread, View.ld_unit_zero (S := S2048x1024) hz,
    View.ld_unit_zero (S := S1024x2048) hz, View.ld_unit_zero (S := S1x2048) hz, View.ld_unit_zero (S := S1x1024) hz,
    View.ld_unit_zero (S := S1x1x2048) hz3]

/-- At a middle point the scratch is left at the tile's arithmetic over what the point before left in it. -/
theorem sout_B (c : Dev nD) (i : grid0.Coords) (arg1 : Memref sig .tc .vmem S2048x1024 .bf16) (harg1 : arg1.IsWhole) (arg2 : Memref sig .tc .vmem S1x1x2048 .i32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x1024 .f32) (harg13 : arg13.IsWhole) (hc0 : ¬cond0_0 i) (hc1 : ¬cond0_1 i)
    (x0 : Vec F S2048x1024 .bf16) (x1 : Vec F S1x1x2048 .i32) (x2 : Vec F S1024x2048 .bf16) (x3 : Vec F S1x2048 .f32) (x4 : Vec F S2048x1024 .bf16) (x5 : Vec F S1x1024 .f32) (x6 : Vec F S1024x512 .bf16) (x7 : Vec F S1x512 .f32) (x8 : Vec F S1024x512 .bf16) (x9 : Vec F S1x512 .f32) (x10 : Vec F S16x512 .f32) (xs0 : Vec F S16x1024 .f32) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0
      = k0_pay1 (k0_pay4 x0 x2 x3 x4 x5 x1 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun0_B
  dsimp only
  sl_unfold_words
  rw [View.canon_unit_zero hz]
  simp only [View.readAt_eq_ld, harg1.read_unread, harg2.read_unread, harg3.read_unread, harg4.read_unread,
    harg5.read_unread, harg6.read_unread, harg13.read_unread, View.ld_unit_zero (S := S2048x1024) hz,
    View.ld_unit_zero (S := S1024x2048) hz, View.ld_unit_zero (S := S1x2048) hz, View.ld_unit_zero (S := S1x1024) hz,
    View.ld_unit_zero (S := S16x1024) hz, View.ld_unit_zero (S := S1x1x2048) hz3]

/-- At the last point the scratch is left the same way, -/
theorem sout_C (c : Dev nD) (i : grid0.Coords) (arg1 : Memref sig .tc .vmem S2048x1024 .bf16) (harg1 : arg1.IsWhole) (arg2 : Memref sig .tc .vmem S1x1x2048 .i32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x1024 .f32) (harg13 : arg13.IsWhole) (hc0 : ¬cond0_0 i) (hc1 : cond0_1 i)
    (x0 : Vec F S2048x1024 .bf16) (x1 : Vec F S1x1x2048 .i32) (x2 : Vec F S1024x2048 .bf16) (x3 : Vec F S1x2048 .f32) (x4 : Vec F S2048x1024 .bf16) (x5 : Vec F S1x1024 .f32) (x6 : Vec F S1024x512 .bf16) (x7 : Vec F S1x512 .f32) (x8 : Vec F S1024x512 .bf16) (x9 : Vec F S1x512 .f32) (x10 : Vec F S16x512 .f32) (xs0 : Vec F S16x1024 .f32) :
    sout0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0
      = k0_pay1 (k0_pay4 x0 x2 x3 x4 x5 x1 xs0) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun0_C
  dsimp only
  sl_unfold_words
  rw [View.canon_unit_zero hz]
  simp only [View.readAt_eq_ld, harg1.read_unread, harg2.read_unread, harg3.read_unread, harg4.read_unread,
    harg5.read_unread, harg6.read_unread, harg13.read_unread, View.ld_unit_zero (S := S2048x1024) hz,
    View.ld_unit_zero (S := S1024x2048) hz, View.ld_unit_zero (S := S1x2048) hz, View.ld_unit_zero (S := S1x1024) hz,
    View.ld_unit_zero (S := S16x1024) hz, View.ld_unit_zero (S := S1x1x2048) hz3]

/-- and the output block is the head's arithmetic over that scratch. -/
theorem out_C (c : Dev nD) (i : grid0.Coords) (arg1 : Memref sig .tc .vmem S2048x1024 .bf16) (harg1 : arg1.IsWhole) (arg2 : Memref sig .tc .vmem S1x1x2048 .i32) (harg2 : arg2.IsWhole) (arg3 : Memref sig .tc .vmem S1024x2048 .bf16) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1x1024 .f32) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x1024 .f32) (harg13 : arg13.IsWhole) (hc0 : ¬cond0_0 i) (hc1 : cond0_1 i)
    (x0 : Vec F S2048x1024 .bf16) (x1 : Vec F S1x1x2048 .i32) (x2 : Vec F S1024x2048 .bf16) (x3 : Vec F S1x2048 .f32) (x4 : Vec F S2048x1024 .bf16) (x5 : Vec F S1x1024 .f32) (x6 : Vec F S1024x512 .bf16) (x7 : Vec F S1x512 .f32) (x8 : Vec F S1024x512 .bf16) (x9 : Vec F S1x512 .f32) (x10 : Vec F S16x512 .f32) (xs0 : Vec F S16x1024 .f32) :
    out0_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0
      = k0_pay2 (k0_pay1 (k0_pay4 x0 x2 x3 x4 x5 x1 xs0)) x6 x7 x8 x9 x10 := by
  unfold out0_C_11
  rw [View.read_writes_eq_canon _ _ _ (cover0_C_11 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 x10 xs0)]
  unfold kernelRun0_C
  dsimp only
  sl_unfold_words
  rw [View.canon_unit_zero hz, View.readCov_unit_zero (S := S16x1024) _ hz]
  simp only [View.readAt_eq_ld, harg1.read_unread, harg2.read_unread, harg3.read_unread, harg4.read_unread,
    harg5.read_unread, harg6.read_unread, harg7.read_unread, harg8.read_unread, harg9.read_unread,
    harg10.read_unread, harg11.read_unread, harg13.read_unread, View.ld_unit_zero (S := S2048x1024) hz,
    View.ld_unit_zero (S := S1024x2048) hz, View.ld_unit_zero (S := S1x2048) hz, View.ld_unit_zero (S := S1x1024) hz,
    View.ld_unit_zero (S := S16x1024) hz, View.ld_unit_zero (S := S1x1x2048) hz3,
    View.ld_unit_zero (S := S1024x512) hz, View.ld_unit_zero (S := S1x512) hz, View.ld_unit_zero (S := S16x512) hz]

end Cert.PoolHead.K

end
-- ==== Proof.PayTile.lean ====
import proofs.«109203_g44203803410838_cont_8to1_c_926_9_alg».proof.Proof.Gen.KernelIdeal.Skeleton
import proofs.«109203_g44203803410838_cont_8to1_c_926_9_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PoolHead.K

open Cert.KernelIdeal Cert.KernelIdeal.Gen Idealize.ShloMosaic Idealize.ShloMosaic.ValueIdx Cert.PoolHead

/-- A word equals the word of a small natural exactly when, read signed, it is that natural. -/
private theorem ofNat_eq_iff_toInt (w : BitVec 32) (b : Fin 16) :
    BitVec.ofNat 32 b.val = w ↔ w.toInt = (b.val : Int) := by
  have hb := b.isLt
  have hto : (BitVec.ofNat 32 b.val).toInt = (b.val : Int) := by
    rw [BitVec.toInt_eq_toNat_cond, BitVec.toNat_ofNat]
    have hm : b.val % 2 ^ 32 = b.val := Nat.mod_eq_of_lt (by omega)
    rw [hm, if_pos (by omega)]
  constructor
  · intro h
    rw [← h]
    exact hto
  · intro h
    exact BitVec.eq_of_toInt_eq (hto.trans h.symm)

/-- The comparison of graph `b`'s word with a node's word, widened and converted, is the indicator that the node names `b`. -/
private theorem onehot_word (w : BitVec 32) (b : Fin 16) :
    (FloatOps.sitofp (F := Ideal) .f32 ((IntOp.cmpi .eq (BitVec.ofNat 32 b.val) w).setWidth 32) : Ideal .f32) = ind w b := by
  show (((((IntOp.cmpi .eq (BitVec.ofNat 32 b.val) w).setWidth 32).toInt : ℝ) : ℝ) : EReal) = ind w b
  unfold ind
  by_cases h : BitVec.ofNat 32 b.val = w
  · have hc : IntOp.cmpi .eq (BitVec.ofNat 32 b.val) w = 1#1 := by
      have hb : (BitVec.ofNat 32 b.val == w) = true := beq_iff_eq.mpr h
      show BitVec.ofBool (BitVec.ofNat 32 b.val == w) = 1#1
      rw [hb]; rfl
    rw [hc, if_pos (show names w b from (ofNat_eq_iff_toInt w b).mp h)]
    have h1 : ((1#1 : BitVec 1).setWidth 32).toInt = 1 := by decide
    rw [h1]
    simp
  · have hc : IntOp.cmpi .eq (BitVec.ofNat 32 b.val) w = 0#1 := by
      have hb : (BitVec.ofNat 32 b.val == w) = false := beq_eq_false_iff_ne.mpr h
      show BitVec.ofBool (BitVec.ofNat 32 b.val == w) = 0#1
      rw [hb]; rfl
    rw [hc, if_neg (show ¬ names w b from fun hn => h ((ofNat_eq_iff_toInt w b).mpr hn))]
    have h0 : ((0#1 : BitVec 1).setWidth 32).toInt = 0 := by decide
    rw [h0]
    simp

/-! The three products: each entry is the sum over the one contracted axis. -/

private theorem d1_lhs0 (i : S2048x2048.Idx) (c : dot_S2048x1024_S1024x2048_S2048x2048_1_0_0_1_n_n.contr.Idx) :
    (dot_S2048x1024_S1024x2048_S2048x2048_1_0_0_1_n_n.lhsIdx i c 0).val = (i 0).val := by
  unfold DotDims.lhsIdx
  rw [dif_neg (show ¬(0 : Fin S2048x1024.rank) ∈ dot_S2048x1024_S1024x2048_S2048x2048_1_0_0_1_n_n.lhsBatch by decide),
    dif_pos (show (0 : Fin S2048x1024.rank) ∈ dot_S2048x1024_S1024x2048_S2048x2048_1_0_0_1_n_n.lhsNonContracting by decide)]
  rfl
private theorem d1_rhs1 (i : S2048x2048.Idx) (c : dot_S2048x1024_S1024x2048_S2048x2048_1_0_0_1_n_n.contr.Idx) :
    (dot_S2048x1024_S1024x2048_S2048x2048_1_0_0_1_n_n.rhsIdx i c 1).val = (i 1).val := by
  unfold DotDims.rhsIdx
  rw [dif_neg (show ¬(1 : Fin S1024x2048.rank) ∈ dot_S2048x1024_S1024x2048_S2048x2048_1_0_0_1_n_n.rhsBatch by decide),
    dif_pos (show (1 : Fin S1024x2048.rank) ∈ dot_S2048x1024_S1024x2048_S2048x2048_1_0_0_1_n_n.rhsNonContracting by decide)]
  rfl

/-- The first layer's product `[2048, 1024] · [1024, 2048]` at `(q, k)`. -/
private theorem mm1_apply (A : FVec Ideal S2048x1024 .bf16) (B : FVec Ideal S1024x2048 .bf16) (q : Fin 2048) (k : Fin 2048) :
    matmul (F := Ideal) dot_S2048x1024_S1024x2048_S2048x2048_1_0_0_1_n_n none A B
        (constant (F := Ideal) S2048x2048 .f32 0x00000000#32) (ix2 q k)
      = ∑ j : Fin 1024, A (ix2 q j) * B (ix2 j k) := by
  refine (Ideal.matmul_constant_zero_apply dot_S2048x1024_S1024x2048_S2048x2048_1_0_0_1_n_n none A B (ix2 q k)).trans ?_
  rw [← Equiv.sum_comp (contrEquiv1 dot_S2048x1024_S1024x2048_S2048x2048_1_0_0_1_n_n 1024 rfl rfl).symm]
  refine Finset.sum_congr rfl fun j _ => ?_
  have hj := contrEquiv1_symm_val dot_S2048x1024_S1024x2048_S2048x2048_1_0_0_1_n_n 1024 rfl rfl j
  have el : dot_S2048x1024_S1024x2048_S2048x2048_1_0_0_1_n_n.lhsIdx (ix2 q k)
      ((contrEquiv1 dot_S2048x1024_S1024x2048_S2048x2048_1_0_0_1_n_n 1024 rfl rfl).symm j) = ix2 q j :=
    funext fun a => Fin.ext (by
      match a with
      | ⟨0, _⟩ => exact d1_lhs0 _ _
      | ⟨1, _⟩ => exact (dot_S2048x1024_S1024x2048_S2048x2048_1_0_0_1_n_n.lhsIdx_val_of_single rfl _ _).trans hj)
  have er : dot_S2048x1024_S1024x2048_S2048x2048_1_0_0_1_n_n.rhsIdx (ix2 q k)
      ((contrEquiv1 dot_S2048x1024_S1024x2048_S2048x2048_1_0_0_1_n_n 1024 rfl rfl).symm j) = ix2 j k :=
    funext fun a => Fin.ext (by
      match a with
      | ⟨0, _⟩ => exact (dot_S2048x1024_S1024x2048_S2048x2048_1_0_0_1_n_n.rhsIdx_val_of_single rfl _ _).trans hj
      | ⟨1, _⟩ => exact d1_rhs1 _ _)
  rw [el, er]

private theorem d2_lhs0 (i : S2048x1024.Idx) (c : dot_S2048x2048_S2048x1024_S2048x1024_1_0_0_1_n_n.contr.Idx) :
    (dot_S2048x2048_S2048x1024_S2048x1024_1_0_0_1_n_n.lhsIdx i c 0).val = (i 0).val := by
  unfold DotDims.lhsIdx
  rw [dif_neg (show ¬(0 : Fin S2048x2048.rank) ∈ dot_S2048x2048_S2048x1024_S2048x1024_1_0_0_1_n_n.lhsBatch by decide),
    dif_pos (show (0 : Fin S2048x2048.rank) ∈ dot_S2048x2048_S2048x1024_S2048x1024_1_0_0_1_n_n.lhsNonContracting by decide)]
  rfl
private theorem d2_rhs1 (i : S2048x1024.Idx) (c : dot_S2048x2048_S2048x1024_S2048x1024_1_0_0_1_n_n.contr.Idx) :
    (dot_S2048x2048_S2048x1024_S2048x1024_1_0_0_1_n_n.rhsIdx i c 1).val = (i 1).val := by
  unfold DotDims.rhsIdx
  rw [dif_neg (show ¬(1 : Fin S2048x1024.rank) ∈ dot_S2048x2048_S2048x1024_S2048x1024_1_0_0_1_n_n.rhsBatch by decide),
    dif_pos (show (1 : Fin S2048x1024.rank) ∈ dot_S2048x2048_S2048x1024_S2048x1024_1_0_0_1_n_n.rhsNonContracting by decide)]
  rfl

/-- The second layer's product `[2048, 2048] · [2048, 1024]` at `(q, d)`. -/
private theorem mm2_apply (A : FVec Ideal S2048x2048 .bf16) (B : FVec Ideal S2048x1024 .bf16) (q : Fin 2048) (d : Fin 1024) :
    matmul (F := Ideal) dot_S2048x2048_S2048x1024_S2048x1024_1_0_0_1_n_n none A B
        (constant (F := Ideal) S2048x1024 .f32 0x00000000#32) (ix2 q d)
      = ∑ k : Fin 2048, A (ix2 q k) * B (ix2 k d) := by
  refine (Ideal.matmul_constant_zero_apply dot_S2048x2048_S2048x1024_S2048x1024_1_0_0_1_n_n none A B (ix2 q d)).trans ?_
  rw [← Equiv.sum_comp (contrEquiv1 dot_S2048x2048_S2048x1024_S2048x1024_1_0_0_1_n_n 2048 rfl rfl).symm]
  refine Finset.sum_congr rfl fun k _ => ?_
  have hk := contrEquiv1_symm_val dot_S2048x2048_S2048x1024_S2048x1024_1_0_0_1_n_n 2048 rfl rfl k
  have el : dot_S2048x2048_S2048x1024_S2048x1024_1_0_0_1_n_n.lhsIdx (ix2 q d)
      ((contrEquiv1 dot_S2048x2048_S2048x1024_S2048x1024_1_0_0_1_n_n 2048 rfl rfl).symm k) = ix2 q k :=
    funext fun a => Fin.ext (by
      match a with
      | ⟨0, _⟩ => exact d2_lhs0 _ _
      | ⟨1, _⟩ => exact (dot_S2048x2048_S2048x1024_S2048x1024_1_0_0_1_n_n.lhsIdx_val_of_single rfl _ _).trans hk)
  have er : dot_S2048x2048_S2048x1024_S2048x1024_1_0_0_1_n_n.rhsIdx (ix2 q d)
      ((contrEquiv1 dot_S2048x2048_S2048x1024_S2048x1024_1_0_0_1_n_n 2048 rfl rfl).symm k) = ix2 k d :=
    funext fun a => Fin.ext (by
      match a with
      | ⟨0, _⟩ => exact (dot_S2048x2048_S2048x1024_S2048x1024_1_0_0_1_n_n.rhsIdx_val_of_single rfl _ _).trans hk
      | ⟨1, _⟩ => exact d2_rhs1 _ _)
  rw [el, er]

private theorem d3_lhs0 (i : S16x1024.Idx) (c : dot_S16x2048_S2048x1024_S16x1024_1_0_0_1_n_n.contr.Idx) :
    (dot_S16x2048_S2048x1024_S16x1024_1_0_0_1_n_n.lhsIdx i c 0).val = (i 0).val := by
  unfold DotDims.lhsIdx
  rw [dif_neg (show ¬(0 : Fin S16x2048.rank) ∈ dot_S16x2048_S2048x1024_S16x1024_1_0_0_1_n_n.lhsBatch by decide),
    dif_pos (show (0 : Fin S16x2048.rank) ∈ dot_S16x2048_S2048x1024_S16x1024_1_0_0_1_n_n.lhsNonContracting by decide)]
  rfl
private theorem d3_rhs1 (i : S16x1024.Idx) (c : dot_S16x2048_S2048x1024_S16x1024_1_0_0_1_n_n.contr.Idx) :
    (dot_S16x2048_S2048x1024_S16x1024_1_0_0_1_n_n.rhsIdx i c 1).val = (i 1).val := by
  unfold DotDims.rhsIdx
  rw [dif_neg (show ¬(1 : Fin S2048x1024.rank) ∈ dot_S16x2048_S2048x1024_S16x1024_1_0_0_1_n_n.rhsBatch by decide),
    dif_pos (show (1 : Fin S2048x1024.rank) ∈ dot_S16x2048_S2048x1024_S16x1024_1_0_0_1_n_n.rhsNonContracting by decide)]
  rfl

/-- The pooling product `[16, 2048] · [2048, 1024]` at `(b, d)`. -/
private theorem mm3_apply (A : FVec Ideal S16x2048 .bf16) (B : FVec Ideal S2048x1024 .bf16) (b : Fin 16) (d : Fin 1024) :
    matmul (F := Ideal) dot_S16x2048_S2048x1024_S16x1024_1_0_0_1_n_n none A B
        (constant (F := Ideal) S16x1024 .f32 0x00000000#32) (ix2 b d)
      = ∑ q : Fin 2048, A (ix2 b q) * B (ix2 q d) := by
  refine (Ideal.matmul_constant_zero_apply dot_S16x2048_S2048x1024_S16x1024_1_0_0_1_n_n none A B (ix2 b d)).trans ?_
  rw [← Equiv.sum_comp (contrEquiv1 dot_S16x2048_S2048x1024_S16x1024_1_0_0_1_n_n 2048 rfl rfl).symm]
  refine Finset.sum_congr rfl fun q _ => ?_
  have hq := contrEquiv1_symm_val dot_S16x2048_S2048x1024_S16x1024_1_0_0_1_n_n 2048 rfl rfl q
  have el : dot_S16x2048_S2048x1024_S16x1024_1_0_0_1_n_n.lhsIdx (ix2 b d)
      ((contrEquiv1 dot_S16x2048_S2048x1024_S16x1024_1_0_0_1_n_n 2048 rfl rfl).symm q) = ix2 b q :=
    funext fun a => Fin.ext (by
      match a with
      | ⟨0, _⟩ => exact d3_lhs0 _ _
      | ⟨1, _⟩ => exact (dot_S16x2048_S2048x1024_S16x1024_1_0_0_1_n_n.lhsIdx_val_of_single rfl _ _).trans hq)
  have er : dot_S16x2048_S2048x1024_S16x1024_1_0_0_1_n_n.rhsIdx (ix2 b d)
      ((contrEquiv1 dot_S16x2048_S2048x1024_S16x1024_1_0_0_1_n_n 2048 rfl rfl).symm q) = ix2 q d :=
    funext fun a => Fin.ext (by
      match a with
      | ⟨0, _⟩ => exact (dot_S16x2048_S2048x1024_S16x1024_1_0_0_1_n_n.rhsIdx_val_of_single rfl _ _).trans hq
      | ⟨1, _⟩ => exact d3_rhs1 _ _)
  rw [el, er]

/-! The tile's three intermediate arrays. -/

/-- The tile's first hidden layer: product, bias row, rectification. -/
private def tile1 (v3 : FVec Ideal S2048x1024 .bf16) (v5 : FVec Ideal S1024x2048 .bf16) (v8 : FVec Ideal S1x2048 .f32) :
    FVec Ideal S2048x2048 .bf16 :=
  truncf .bf16 (maximumf (addf
    (matmul (F := Ideal) dot_S2048x1024_S1024x2048_S2048x2048_1_0_0_1_n_n none
      (shapeCast S2048x1024 v3 shapeCasts_S2048x1024_S2048x1024) (shapeCast S1024x2048 v5 shapeCasts_S1024x2048_S1024x2048)
      (constant S2048x2048 .f32 0x00000000#32))
    (broadcastTo S2048x2048 (shapeCast S1x2048 v8 shapeCasts_S1x2048_S1x2048) broadcasts_S1x2048_S2048x2048))
    (broadcast S2048x2048 (Scalar.ofBits .f32 0x00000000#32))) bitsLt_bf16_f32

private theorem tile1_apply (v3 : FVec Ideal S2048x1024 .bf16) (v5 : FVec Ideal S1024x2048 .bf16) (v8 : FVec Ideal S1x2048 .f32)
    (q : Fin 2048) (k : Fin 2048) :
    tile1 v3 v5 v8 (ix2 q k)
      = max (∑ j : Fin 1024, v3 (ix2 q j) * v5 (ix2 j k) + v8 (ix2 (0 : Fin 1) k)) zero32 := by
  unfold tile1
  rw [shapeCast_self v3, shapeCast_self v5, shapeCast_self v8]
  show max (matmul (F := Ideal) dot_S2048x1024_S1024x2048_S2048x2048_1_0_0_1_n_n none v3 v5
      (constant (F := Ideal) S2048x2048 .f32 0x00000000#32) (ix2 q k)
    + broadcastTo S2048x2048 v8 broadcasts_S1x2048_S2048x2048 (ix2 q k)) zero32 = _
  rw [mm1_apply, broadcastTo_1b_ab_apply]

/-- The tile's second hidden layer over the first. -/
private def tile2 (v3 : FVec Ideal S2048x1024 .bf16) (v5 : FVec Ideal S1024x2048 .bf16) (v8 : FVec Ideal S1x2048 .f32)
    (v15 : FVec Ideal S2048x1024 .bf16) (v18 : FVec Ideal S1x1024 .f32) : FVec Ideal S2048x1024 .bf16 :=
  truncf .bf16 (maximumf (addf
    (matmul (F := Ideal) dot_S2048x2048_S2048x1024_S2048x1024_1_0_0_1_n_n none
      (tile1 v3 v5 v8) (shapeCast S2048x1024 v15 shapeCasts_S2048x1024_S2048x1024)
      (constant S2048x1024 .f32 0x00000000#32))
    (broadcastTo S2048x1024 (shapeCast S1x1024 v18 shapeCasts_S1x1024_S1x1024) broadcasts_S1x1024_S2048x1024))
    (broadcast S2048x1024 (Scalar.ofBits .f32 0x00000000#32))) bitsLt_bf16_f32

private theorem tile2_apply (v3 : FVec Ideal S2048x1024 .bf16) (v5 : FVec Ideal S1024x2048 .bf16) (v8 : FVec Ideal S1x2048 .f32)
    (v15 : FVec Ideal S2048x1024 .bf16) (v18 : FVec Ideal S1x1024 .f32) (q : Fin 2048) (d : Fin 1024) :
    tile2 v3 v5 v8 v15 v18 (ix2 q d)
      = max (∑ k : Fin 2048,
          max (∑ j : Fin 1024, v3 (ix2 q j) * v5 (ix2 j k) + v8 (ix2 (0 : Fin 1) k)) zero32 * v15 (ix2 k d)
            + v18 (ix2 (0 : Fin 1) d)) zero32 := by
  unfold tile2
  rw [shapeCast_self v15, shapeCast_self v18]
  show max (matmul (F := Ideal) dot_S2048x2048_S2048x1024_S2048x1024_1_0_0_1_n_n none (tile1 v3 v5 v8) v15
      (constant (F := Ideal) S2048x1024 .f32 0x00000000#32) (ix2 q d)
    + broadcastTo S2048x1024 v18 broadcasts_S1x1024_S2048x1024 (ix2 q d)) zero32 = _
  rw [mm2_apply, broadcastTo_1b_ab_apply]
  refine congrArg (fun s => max (s + v18 (ix2 (0 : Fin 1) d)) zero32) (Finset.sum_congr rfl fun k _ => ?_)
  rw [tile1_apply]

/-- The tile's indicator rows: row `b` marks the nodes whose word is `b`'s. -/
private def tileInd (v25 : IVec S1x1x2048 32) : FVec Ideal S16x2048 .bf16 :=
  truncf .bf16 (sitofp .f32 (extui 32 (cmpi .eq (iota .tc S16x2048 32 [0] iota_S16x2048_d0_w32)
    (broadcastTo S16x2048 (shapeCast S1x2048 v25 shapeCasts_S1x1x2048_S1x2048) broadcasts_S1x2048_S16x2048)) natLt_1_32))
    bitsLt_bf16_f32

private theorem tileInd_apply (v25 : IVec S1x1x2048 32) (b : Fin 16) (q : Fin 2048) :
    tileInd v25 (ix2 b q) = ind (v25 (ix3 (0 : Fin 1) (0 : Fin 1) q)) b := by
  unfold tileInd
  show (FloatOps.sitofp (F := Ideal) .f32 ((IntOp.cmpi .eq (iota .tc S16x2048 32 [0] iota_S16x2048_d0_w32 (ix2 b q))
    (broadcastTo S16x2048 (shapeCast S1x2048 v25 shapeCasts_S1x1x2048_S1x2048) broadcasts_S1x2048_S16x2048 (ix2 b q))).setWidth 32)
      : Ideal .f32) = _
  rw [iota_single_apply, broadcastTo_1b_ab_apply, shapeCast_1ab_ab_apply]
  exact onehot_word _ b

/-- One tile's arithmetic at entry `(b, d)`: the running sum's entry plus, over the tile's 2048 nodes, the indicator
    that the node's word names graph `b` times the node's second hidden unit `d`. -/
theorem pay4_apply (v3 : Vec Ideal S2048x1024 .bf16) (v5 : Vec Ideal S1024x2048 .bf16) (v8 : Vec Ideal S1x2048 .f32)
    (v15 : Vec Ideal S2048x1024 .bf16) (v18 : Vec Ideal S1x1024 .f32) (v25 : Vec Ideal S1x1x2048 .i32)
    (v33 : Vec Ideal S16x1024 .f32) (b : Fin 16) (d : Fin 1024) :
    k0_pay4 (F := Ideal) v3 v5 v8 v15 v18 v25 v33 (ix2 b d)
      = v33 (ix2 b d) + ∑ q : Fin 2048, ind (v25 (ix3 (0 : Fin 1) (0 : Fin 1) q)) b *
          max (∑ k : Fin 2048,
            max (∑ j : Fin 1024, v3 (ix2 q j) * v5 (ix2 j k) + v8 (ix2 (0 : Fin 1) k)) zero32 * v15 (ix2 k d)
              + v18 (ix2 (0 : Fin 1) d)) zero32 := by
  have e : k0_pay4 (F := Ideal) v3 v5 v8 v15 v18 v25 v33
      = addf v33 (matmul (F := Ideal) dot_S16x2048_S2048x1024_S16x1024_1_0_0_1_n_n none (tileInd v25)
          (tile2 v3 v5 v8 v15 v18) (constant (F := Ideal) S16x1024 .f32 0x00000000#32)) := rfl
  rw [e]
  show v33 (ix2 b d) + matmul (F := Ideal) dot_S16x2048_S2048x1024_S16x1024_1_0_0_1_n_n none (tileInd v25)
      (tile2 v3 v5 v8 v15 v18) (constant (F := Ideal) S16x1024 .f32 0x00000000#32) (ix2 b d) = _
  rw [mm3_apply]
  refine congrArg (fun s => v33 (ix2 b d) + s) (Finset.sum_congr rfl fun q _ => ?_)
  rw [tileInd_apply, tile2_apply]

end Cert.PoolHead.K

end
-- ==== Proof.BlocksTiled.lean ====
import proofs.«109203_g44203803410838_cont_8to1_c_926_9_alg».proof.Proof.Gen.KernelIdeal.Frame
import proofs.«109203_g44203803410838_cont_8to1_c_926_9_alg».proof.Proof.KArgs
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.PoolHead.K

open Cert.KernelIdeal Cert.KernelIdeal.Gen Idealize.ShloMosaic Idealize.ShloMosaic.TcCoe Idealize.ShloMosaic.ValueIdx Idealize.SL.Sem Cert.PoolHead

variable (m : (ℓ : Loc nD τ sig) → Buf (Elt Ideal) ℓ)

/-- Where the two tiled windows' index maps send a grid point: window 0 to row block `t` of the only column block,
    window 1 to plane `t`. -/
private theorem idx0_facts : ∀ t : Fin grid0.N, win0_0.index t 0 = t.val ∧ win0_0.index t 1 = 0 := by decide +kernel

private theorem idx1_facts : ∀ t : Fin grid0.N, win0_1.index t 0 = t.val ∧ win0_1.index t 1 = 0 ∧ win0_1.index t 2 = 0 := by
  decide +kernel

/-- The region finds the node features as launched: the conversion to bf16 is the identity on extended reals. -/
private theorem V_X (c : Dev nD) :
    (V m c main_call0_v1 : S32768x1024.Idx → EReal) = m (c.tc.loc main_arg0) := by
  dsimp only [Gen.V, Gen.hostOps0]; after_results; rfl

/-- The region finds the graph words re-laid as 16 planes of one row of 2048. -/
private theorem V_seg (c : Dev nD) :
    (V m c main_call0_v0 : S16x1x2048.Idx → BitVec 32)
      = shapeCast S16x1x2048 (m (c.tc.loc main_arg1)) shapeCasts_S32768_S16x1x2048 := by
  dsimp only [Gen.V, Gen.hostOps0]; after_results; rfl

/-- Entry `(t, 0, q)` of the 16 × 1 × 2048 re-laying is entry `2048·t + q` of the flat array: both sit at that
    row-major position. -/
private theorem reshape_seg {α : Type} (x : S32768.Idx → α) (i : S16x1x2048.Idx) (r : Fin 32768)
    (hr : r.val = 2048 * (i 0).val + (i 2).val) :
    shapeCast S16x1x2048 x shapeCasts_S32768_S16x1x2048 i = x (ix1 r) := by
  refine shapeCast_apply x _ i (ix1 r) ?_
  rw [Shape.rowMajor_val_one, Shape.rowMajor_val_three]
  have h1 : (i 1).val < 1 := (i 1).isLt
  show r.val = ((i 0).val * 1 + (i 1).val) * 2048 + (i 2).val
  omega

/-- Window 0's block at point `t` is rows `2048·t … 2048·t + 2047` of the node features. -/
theorem blk0_apply (c : Dev nD) (t : Fin cfg0.N) (q : Fin 2048) (j : Fin 1024) :
    (iblk m c 0 t : Vec Ideal S2048x1024 .bf16) (ix2 q j) = (argsOf m c).X (ix2 (row (tileOf t) q) j) := by
  unfold iblk
  rw [View.read_apply]
  show V m c main_call0_v1 _ = m (c.tc.loc main_arg0) _
  rw [V_X]
  congr 1
  funext a
  apply Fin.ext
  -- a block's coordinate in the array is (block index) × (block extent) + (coordinate inside the block)
  match a with
  | ⟨0, _⟩ =>
    show win0_0.index t 0 * 2048 + 1 * q.val = 2048 * t.val + q.val
    rw [(idx0_facts t).1]; omega
  | ⟨1, _⟩ =>
    show win0_0.index t 1 * 1024 + 1 * j.val = j.val
    rw [(idx0_facts t).2]; omega

/-- Window 1's block at point `t` is the graph words of the same rows. -/
theorem blk1_apply (c : Dev nD) (t : Fin cfg0.N) (q : Fin 2048) :
    (iblk m c 1 t : Vec Ideal S1x1x2048 .i32) (ix3 (0 : Fin 1) (0 : Fin 1) q) = (argsOf m c).seg (ix1 (row (tileOf t) q)) := by
  unfold iblk
  rw [View.read_apply]
  show V m c main_call0_v0 _ = m (c.tc.loc main_arg1) _
  rw [V_seg]
  refine reshape_seg _ _ _ ?_
  show 2048 * t.val + q.val = 2048 * (win0_1.index t 0 * 1 + 1 * 0) + (win0_1.index t 2 * 2048 + 1 * q.val)
  rw [(idx1_facts t).1, (idx1_facts t).2.2]; omega

end Cert.PoolHead.K

end
-- ==== Proof.BlocksWhole.lean ====
import proofs.«109203_g44203803410838_cont_8to1_c_926_9_alg».proof.Proof.Gen.KernelIdeal.Frame
import proofs.«109203_g44203803410838_cont_8to1_c_926_9_alg».proof.Proof.KArgs
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.PoolHead.K

open Cert.KernelIdeal Cert.KernelIdeal.Gen Idealize.ShloMosaic Idealize.ShloMosaic.TcCoe Idealize.ShloMosaic.ValueIdx Idealize.SL.Sem Cert.PoolHead

variable (m : (ℓ : Loc nD τ sig) → Buf (Elt Ideal) ℓ)

/-! ## What the region finds in the staged arrays

The weights reach the region through a conversion to the narrower float type, which over the extended reals changes
no entry; each bias vector of length `n` reaches it as the one-row matrix `[1, n]` with the same entries in order.
The noise matrix is staged as it was launched. Every one of these nine windows has block index `(0, 0)` at every
grid point and a block as large as its array, so the entry `(i, j)` of the block is the entry `(i, j)` of the array. -/

private theorem V_call2 (c : Dev nD) :
    (V m c main_call0_v2 : S1024x2048.Idx → EReal) = m ((c.tc : Thread nD τ).loc main_arg2) := by
  dsimp only [Gen.V, Gen.hostOps0]; after_results; rfl

private theorem index2 : ∀ t : Fin grid0.N, win0_2.index t 0 = 0 ∧ win0_2.index t 1 = 0 := by decide +kernel

private theorem V_call3 (c : Dev nD) :
    (V m c main_call0_v3 : S1x2048.Idx → EReal)
      = shapeCast S1x2048 (m ((c.tc : Thread nD τ).loc main_arg3) : S2048.Idx → EReal) shapeCasts_S2048_S1x2048 := by
  dsimp only [Gen.V, Gen.hostOps0]; after_results; rfl

private theorem index3 : ∀ t : Fin grid0.N, win0_3.index t 0 = 0 ∧ win0_3.index t 1 = 0 := by decide +kernel

private theorem V_call4 (c : Dev nD) :
    (V m c main_call0_v4 : S2048x1024.Idx → EReal) = m ((c.tc : Thread nD τ).loc main_arg4) := by
  dsimp only [Gen.V, Gen.hostOps0]; after_results; rfl

private theorem index4 : ∀ t : Fin grid0.N, win0_4.index t 0 = 0 ∧ win0_4.index t 1 = 0 := by decide +kernel

private theorem V_call5 (c : Dev nD) :
    (V m c main_call0_v5 : S1x1024.Idx → EReal)
      = shapeCast S1x1024 (m ((c.tc : Thread nD τ).loc main_arg5) : S1024.Idx → EReal) shapeCasts_S1024_S1x1024 := by
  dsimp only [Gen.V, Gen.hostOps0]; after_results; rfl

private theorem index5 : ∀ t : Fin grid0.N, win0_5.index t 0 = 0 ∧ win0_5.index t 1 = 0 := by decide +kernel

private theorem V_call6 (c : Dev nD) :
    (V m c main_call0_v6 : S1024x512.Idx → EReal) = m ((c.tc : Thread nD τ).loc main_arg6) := by
  dsimp only [Gen.V, Gen.hostOps0]; after_results; rfl

private theorem index6 : ∀ t : Fin grid0.N, win0_6.index t 0 = 0 ∧ win0_6.index t 1 = 0 := by decide +kernel

private theorem V_call7 (c : Dev nD) :
    (V m c main_call0_v7 : S1x512.Idx → EReal)
      = shapeCast S1x512 (m ((c.tc : Thread nD τ).loc main_arg7) : S512.Idx → EReal) shapeCasts_S512_S1x512 := by
  dsimp only [Gen.V, Gen.hostOps0]; after_results; rfl

private theorem index7 : ∀ t : Fin grid0.N, win0_7.index t 0 = 0 ∧ win0_7.index t 1 = 0 := by decide +kernel

private theorem V_call8 (c : Dev nD) :
    (V m c main_call0_v8 : S1024x512.Idx → EReal) = m ((c.tc : Thread nD τ).loc main_arg8) := by
  dsimp only [Gen.V, Gen.hostOps0]; after_results; rfl

private theorem index8 : ∀ t : Fin grid0.N, win0_8.index t 0 = 0 ∧ win0_8.index t 1 = 0 := by decide +kernel

private theorem V_call9 (c : Dev nD) :
    (V m c main_call0_v9 : S1x512.Idx → EReal)
      = shapeCast S1x512 (m ((c.tc : Thread nD τ).loc main_arg9) : S512.Idx → EReal) shapeCasts_S512_S1x512 := by
  dsimp only [Gen.V, Gen.hostOps0]; after_results; rfl

private theorem index9 : ∀ t : Fin grid0.N, win0_9.index t 0 = 0 ∧ win0_9.index t 1 = 0 := by decide +kernel

private theorem index10 : ∀ t : Fin grid0.N, win0_10.index t 0 = 0 ∧ win0_10.index t 1 = 0 := by decide +kernel

/-- Windows 2 to 10 stage a whole array at every point: the weights as they are, each bias as a one-row matrix. -/
theorem blk2_apply (c : Dev nD) (t : Fin cfg0.N) (j : Fin 1024) (k : Fin 2048) :
    (iblk m c 2 t : Vec Ideal S1024x2048 .bf16) (ix2 j k) = (argsOf m c).W1 (ix2 j k) := by
  unfold iblk
  rw [View.read_apply]
  show V m c main_call0_v2 _ = m (c.tc.loc main_arg2) _
  rw [V_call2]
  refine congrArg _ (funext fun a => Fin.ext ?_)
  match a with
  | ⟨0, _⟩ => show win0_2.index t 0 * 1024 + 1 * j.val = j.val; rw [(index2 t).1]; omega
  | ⟨1, _⟩ => show win0_2.index t 1 * 2048 + 1 * k.val = k.val; rw [(index2 t).2]; omega

theorem blk3_apply (c : Dev nD) (t : Fin cfg0.N) (k : Fin 2048) :
    (iblk m c 3 t : Vec Ideal S1x2048 .f32) (ix2 (0 : Fin 1) k) = (argsOf m c).b1 (ix1 k) := by
  unfold iblk
  rw [View.read_apply]
  show V m c main_call0_v3 _ = m (c.tc.loc main_arg3) _
  rw [V_call3]
  refine (congrArg _ (funext fun a => Fin.ext ?_)).trans
    (shapeCast_a_1a_apply (m (c.tc.loc main_arg3)) shapeCasts_S2048_S1x2048 (0 : Fin 1) k)
  match a with
  | ⟨0, _⟩ => show win0_3.index t 0 * 1 + 1 * 0 = 0; rw [(index3 t).1]
  | ⟨1, _⟩ => show win0_3.index t 1 * 2048 + 1 * k.val = k.val; rw [(index3 t).2]; omega

theorem blk4_apply (c : Dev nD) (t : Fin cfg0.N) (k : Fin 2048) (d : Fin 1024) :
    (iblk m c 4 t : Vec Ideal S2048x1024 .bf16) (ix2 k d) = (argsOf m c).W2 (ix2 k d) := by
  unfold iblk
  rw [View.read_apply]
  show V m c main_call0_v4 _ = m (c.tc.loc main_arg4) _
  rw [V_call4]
  refine congrArg _ (funext fun a => Fin.ext ?_)
  match a with
  | ⟨0, _⟩ => show win0_4.index t 0 * 2048 + 1 * k.val = k.val; rw [(index4 t).1]; omega
  | ⟨1, _⟩ => show win0_4.index t 1 * 1024 + 1 * d.val = d.val; rw [(index4 t).2]; omega

theorem blk5_apply (c : Dev nD) (t : Fin cfg0.N) (d : Fin 1024) :
    (iblk m c 5 t : Vec Ideal S1x1024 .f32) (ix2 (0 : Fin 1) d) = (argsOf m c).b2 (ix1 d) := by
  unfold iblk
  rw [View.read_apply]
  show V m c main_call0_v5 _ = m (c.tc.loc main_arg5) _
  rw [V_call5]
  refine (congrArg _ (funext fun a => Fin.ext ?_)).trans
    (shapeCast_a_1a_apply (m (c.tc.loc main_arg5)) shapeCasts_S1024_S1x1024 (0 : Fin 1) d)
  match a with
  | ⟨0, _⟩ => show win0_5.index t 0 * 1 + 1 * 0 = 0; rw [(index5 t).1]
  | ⟨1, _⟩ => show win0_5.index t 1 * 1024 + 1 * d.val = d.val; rw [(index5 t).2]; omega

theorem blk6_apply (c : Dev nD) (t : Fin cfg0.N) (d : Fin 1024) (l : Fin 512) :
    (iblk m c 6 t : Vec Ideal S1024x512 .bf16) (ix2 d l) = (argsOf m c).Wm (ix2 d l) := by
  unfold iblk
  rw [View.read_apply]
  show V m c main_call0_v6 _ = m (c.tc.loc main_arg6) _
  rw [V_call6]
  refine congrArg _ (funext fun a => Fin.ext ?_)
  match a with
  | ⟨0, _⟩ => show win0_6.index t 0 * 1024 + 1 * d.val = d.val; rw [(index6 t).1]; omega
  | ⟨1, _⟩ => show win0_6.index t 1 * 512 + 1 * l.val = l.val; rw [(index6 t).2]; omega

theorem blk7_apply (c : Dev nD) (t : Fin cfg0.N) (l : Fin 512) :
    (iblk m c 7 t : Vec Ideal S1x512 .f32) (ix2 (0 : Fin 1) l) = (argsOf m c).bm (ix1 l) := by
  unfold iblk
  rw [View.read_apply]
  show V m c main_call0_v7 _ = m (c.tc.loc main_arg7) _
  rw [V_call7]
  refine (congrArg _ (funext fun a => Fin.ext ?_)).trans
    (shapeCast_a_1a_apply (m (c.tc.loc main_arg7)) shapeCasts_S512_S1x512 (0 : Fin 1) l)
  match a with
  | ⟨0, _⟩ => show win0_7.index t 0 * 1 + 1 * 0 = 0; rw [(index7 t).1]
  | ⟨1, _⟩ => show win0_7.index t 1 * 512 + 1 * l.val = l.val; rw [(index7 t).2]; omega

theorem blk8_apply (c : Dev nD) (t : Fin cfg0.N) (d : Fin 1024) (l : Fin 512) :
    (iblk m c 8 t : Vec Ideal S1024x512 .bf16) (ix2 d l) = (argsOf m c).Wv (ix2 d l) := by
  unfold iblk
  rw [View.read_apply]
  show V m c main_call0_v8 _ = m (c.tc.loc main_arg8) _
  rw [V_call8]
  refine congrArg _ (funext fun a => Fin.ext ?_)
  match a with
  | ⟨0, _⟩ => show win0_8.index t 0 * 1024 + 1 * d.val = d.val; rw [(index8 t).1]; omega
  | ⟨1, _⟩ => show win0_8.index t 1 * 512 + 1 * l.val = l.val; rw [(index8 t).2]; omega

theorem blk9_apply (c : Dev nD) (t : Fin cfg0.N) (l : Fin 512) :
    (iblk m c 9 t : Vec Ideal S1x512 .f32) (ix2 (0 : Fin 1) l) = (argsOf m c).bv (ix1 l) := by
  unfold iblk
  rw [View.read_apply]
  show V m c main_call0_v9 _ = m (c.tc.loc main_arg9) _
  rw [V_call9]
  refine (congrArg _ (funext fun a => Fin.ext ?_)).trans
    (shapeCast_a_1a_apply (m (c.tc.loc main_arg9)) shapeCasts_S512_S1x512 (0 : Fin 1) l)
  match a with
  | ⟨0, _⟩ => show win0_9.index t 0 * 1 + 1 * 0 = 0; rw [(index9 t).1]
  | ⟨1, _⟩ => show win0_9.index t 1 * 512 + 1 * l.val = l.val; rw [(index9 t).2]; omega

theorem blk10_apply (c : Dev nD) (t : Fin cfg0.N) (b : Fin 16) (l : Fin 512) :
    (iblk m c 10 t : Vec Ideal S16x512 .f32) (ix2 b l) = (argsOf m c).eps (ix2 b l) := by
  unfold iblk
  rw [View.read_apply]
  show V m c main_arg10 _ = m (c.tc.loc main_arg10) _
  rw [V_main_arg10]
  refine congrArg _ (funext fun a => Fin.ext ?_)
  match a with
  | ⟨0, _⟩ => show win0_10.index t 0 * 16 + 1 * b.val = b.val; rw [(index10 t).1]; omega
  | ⟨1, _⟩ => show win0_10.index t 1 * 512 + 1 * l.val = l.val; rw [(index10 t).2]; omega

end Cert.PoolHead.K

end
-- ==== Proof.Fold.lean ====
import proofs.«109203_g44203803410838_cont_8to1_c_926_9_alg».proof.Proof.Gen.KernelIdeal.Frame
import proofs.«109203_g44203803410838_cont_8to1_c_926_9_alg».proof.Proof.KArgs
import proofs.«109203_g44203803410838_cont_8to1_c_926_9_alg».proof.Proof.Pieces
import proofs.«109203_g44203803410838_cont_8to1_c_926_9_alg».proof.Proof.PayTile
import proofs.«109203_g44203803410838_cont_8to1_c_926_9_alg».proof.Proof.BlocksTiled
import proofs.«109203_g44203803410838_cont_8to1_c_926_9_alg».proof.Proof.BlocksWhole
import Idealize.ShloMosaic.Lib.Pipeline.Value
import Idealize.ShloMosaic.Lib.ValueIdx

noncomputable section

open scoped BigOperators

namespace Cert.PoolHead.K

open Cert.KernelIdeal Cert.KernelIdeal.Gen Idealize.ShloMosaic Idealize.ShloMosaic.TcCoe Idealize.ShloMosaic.ValueIdx Idealize.SL.Sem Cert.PoolHead

variable (m : (ℓ : Loc nD τ sig) → Buf (Elt Ideal) ℓ)

/-- ONE TILE'S STEP. At point `t` the scratch leaves the body holding, at graph `b` and unit `d`, what it held
    (`acc`) plus tile `t`'s term of the pooled sum: the blocks the body loads are the tile's rows of the node
    features and graph words and the whole weight and bias arrays. -/
theorem tile_step (c : Dev nD) (t : Fin cfg0.N) (acc : Vec Ideal S16x1024 .f32) (b : Fin 16) (d : Fin 1024) :
    k0_pay1 (F := Ideal) (k0_pay4 (iblk m c 0 t) (iblk m c 2 t) (iblk m c 3 t) (iblk m c 4 t) (iblk m c 5 t) (iblk m c 1 t) acc) (ix2 b d)
      = acc (ix2 b d) + tileTerm (argsOf m c) (tileOf t) b d := by
  unfold k0_pay1
  rw [shapeCast_self]
  refine (pay4_apply (iblk m c 0 t) (iblk m c 2 t) (iblk m c 3 t) (iblk m c 4 t) (iblk m c 5 t) (iblk m c 1 t) acc b d).trans ?_
  refine congrArg (fun z => acc (ix2 b d) + z) ?_
  unfold tileTerm hidden2 hidden1
  refine Finset.sum_congr rfl fun q _ => ?_
  rw [blk1_apply m c t q, blk5_apply m c t d]
  refine congrArg (fun z => ind ((argsOf m c).seg (ix1 (row (tileOf t) q))) b * max (z + (argsOf m c).b2 (ix1 d)) zero32) ?_
  refine Finset.sum_congr rfl fun k _ => ?_
  rw [blk3_apply m c t k, blk4_apply m c t k d]
  refine congrArg (fun z => max (z + (argsOf m c).b1 (ix1 k)) zero32 * (argsOf m c).W2 (ix2 k d)) ?_
  refine Finset.sum_congr rfl fun j _ => ?_
  rw [blk0_apply m c t q j, blk2_apply m c t j k]

/-- The block the first point stores into the scratch before it accumulates is the zero word everywhere. -/
theorem zero_block (b : Fin 16) (d : Fin 1024) : k0_pay3 (F := Ideal) (ix2 b d) = zero32 := by
  unfold k0_pay3
  rw [shapeCast_self]
  rfl

/-- THE RUNNING SUM. After point `n` the carried scratch holds the specification's running sum after tile `n`:
    by induction on the point, the first point starting from the zero block, every later one from what the point
    before left. -/
theorem scratch_after (c : Dev nD) : ∀ (n : ℕ) (hn : n < cfg0.N) (b : Fin 16) (d : Fin 1024),
    ((outsAt0 m c n hn).2 : Vec Ideal S16x1024 .f32) (ix2 b d) = accAfter (argsOf m c) n b d
  | 0, hn, b, d => by
    have h0 : (⟨0, hn⟩ : Fin cfg0.N).val % 16 = 0 := rfl
    have h1 : ¬(⟨0, hn⟩ : Fin cfg0.N).val % 16 = 15 := by dsimp only; omega
    rw [outsAt0_A m c ⟨0, hn⟩ h0 h1]
    dsimp only
    rw [sout_A, tile_step, zero_block, accAfter_zero]
    rfl
  | n + 1, hn, b, d => by
    have hN : n + 1 < 16 := lt_of_lt_of_eq hn N_0
    have h0 : ¬(⟨n + 1, hn⟩ : Fin cfg0.N).val % 16 = 0 := by dsimp only; omega
    have ih := scratch_after c n (Nat.lt_of_succ_lt hn) b d
    by_cases h1 : (⟨n + 1, hn⟩ : Fin cfg0.N).val % 16 = 15
    · rw [outsAt0_C m c ⟨n + 1, hn⟩ h0 h1]
      dsimp only
      rw [sout_C, tile_step, accAfter_succ (argsOf m c) n hN b d]
      exact congrArg (fun z => z + tileTerm (argsOf m c) ⟨n + 1, hN⟩ b d) ih
    · rw [outsAt0_B m c ⟨n + 1, hn⟩ h0 h1]
      dsimp only
      rw [sout_B, tile_step, accAfter_succ (argsOf m c) n hN b d]
      exact congrArg (fun z => z + tileTerm (argsOf m c) ⟨n + 1, hN⟩ b d) ih

end Cert.PoolHead.K

end
-- ==== Proof.PayHead.lean ====
import proofs.«109203_g44203803410838_cont_8to1_c_926_9_alg».proof.Proof.Gen.KernelIdeal.Skeleton
import proofs.«109203_g44203803410838_cont_8to1_c_926_9_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.PoolHead.K

open Cert.KernelIdeal Cert.KernelIdeal.Gen Idealize.ShloMosaic Idealize.ShloMosaic.ValueIdx Cert.PoolHead

/-- Left operand index of the head's products at a non-contracted row: the entry's row. -/
private theorem lhs_row (j : S16x512.Idx) (q : dot_S16x1024_S1024x512_S16x512_1_0_0_1_n_n.contr.Idx) :
    (dot_S16x1024_S1024x512_S16x512_1_0_0_1_n_n.lhsIdx j q 0).val = (j 0).val := by
  unfold DotDims.lhsIdx
  rw [dif_neg (show ¬(0 : Fin S16x1024.rank) ∈ dot_S16x1024_S1024x512_S16x512_1_0_0_1_n_n.lhsBatch by decide),
    dif_pos (show (0 : Fin S16x1024.rank) ∈ dot_S16x1024_S1024x512_S16x512_1_0_0_1_n_n.lhsNonContracting by decide)]
  rfl

/-- Right operand index of the head's products at the non-contracted column: the entry's column. -/
private theorem rhs_col (j : S16x512.Idx) (q : dot_S16x1024_S1024x512_S16x512_1_0_0_1_n_n.contr.Idx) :
    (dot_S16x1024_S1024x512_S16x512_1_0_0_1_n_n.rhsIdx j q 1).val = (j 1).val := by
  unfold DotDims.rhsIdx
  rw [dif_neg (show ¬(1 : Fin S1024x512.rank) ∈ dot_S16x1024_S1024x512_S16x512_1_0_0_1_n_n.rhsBatch by decide),
    dif_pos (show (1 : Fin S1024x512.rank) ∈ dot_S16x1024_S1024x512_S16x512_1_0_0_1_n_n.rhsNonContracting by decide)]
  rfl

/-- A `[16,1024] · [1024,512]` product into the zero splat, plus a bias row broadcast over the 16 rows, read at
    entry `(b, l)`: the sum over the contracted axis of row `b` of the left operand against column `l` of the right
    one, plus the bias row's entry `l`. The narrowing of the left operand and the casts to the same shape are the identity. -/
private theorem matmul_bias_apply (x : FVec Ideal S16x1024 .f32) (w : FVec Ideal S1024x512 .bf16) (c : FVec Ideal S1x512 .f32)
    (hlt : FTy.bf16.bits < FTy.f32.bits) (hw : S1024x512.ShapeCasts S1024x512) (hc : S1x512.ShapeCasts S1x512)
    (hb : S1x512.Broadcasts S16x512) (b : Fin 16) (l : Fin 512) :
    addf (matmul dot_S16x1024_S1024x512_S16x512_1_0_0_1_n_n none (truncf .bf16 x hlt) (shapeCast S1024x512 w hw) (constant (F := Ideal) S16x512 .f32 0x00000000#32))
        (broadcastTo S16x512 (shapeCast S1x512 c hc) hb) (ix2 b l)
      = ∑ d : Fin 1024, x (ix2 b d) * w (ix2 d l) + c (ix2 (0 : Fin 1) l) := by
  rw [shapeCast_self, shapeCast_self, addf_apply, broadcastTo_1b_ab_apply]
  refine congrArg (· + c (ix2 (0 : Fin 1) l)) ?_
  show FloatOps.matmul dot_S16x1024_S1024x512_S16x512_1_0_0_1_n_n none (truncf .bf16 x hlt) w (constant (F := Ideal) S16x512 .f32 0x00000000#32) (ix2 b l) = _
  rw [Ideal.matmul_constant_zero_apply, ← Equiv.sum_comp (contrEquiv1 dot_S16x1024_S1024x512_S16x512_1_0_0_1_n_n 1024 rfl rfl).symm]
  refine Finset.sum_congr rfl fun k _ => ?_
  have hk := contrEquiv1_symm_val dot_S16x1024_S1024x512_S16x512_1_0_0_1_n_n 1024 rfl rfl k
  have el : dot_S16x1024_S1024x512_S16x512_1_0_0_1_n_n.lhsIdx (ix2 b l) ((contrEquiv1 dot_S16x1024_S1024x512_S16x512_1_0_0_1_n_n 1024 rfl rfl).symm k) = ix2 b k :=
    funext fun a => Fin.ext (by
      match a with
      | ⟨0, _⟩ => exact lhs_row _ _
      | ⟨1, _⟩ => exact (dot_S16x1024_S1024x512_S16x512_1_0_0_1_n_n.lhsIdx_val_of_single rfl (ix2 b l) _).trans hk)
  have er : dot_S16x1024_S1024x512_S16x512_1_0_0_1_n_n.rhsIdx (ix2 b l) ((contrEquiv1 dot_S16x1024_S1024x512_S16x512_1_0_0_1_n_n 1024 rfl rfl).symm k) = ix2 k l :=
    funext fun a => Fin.ext (by
      match a with
      | ⟨0, _⟩ => exact (dot_S16x1024_S1024x512_S16x512_1_0_0_1_n_n.rhsIdx_val_of_single rfl (ix2 b l) _).trans hk
      | ⟨1, _⟩ => exact rhs_col _ _)
  rw [el, er, truncf_apply]

/-- The head's arithmetic at entry `(b, l)`: the mean head plus `exp ((−½) · |variance head|)` times the noise. -/
theorem pay2_apply (v42 : Vec Ideal S16x1024 .f32) (v44 : Vec Ideal S1024x512 .bf16) (v47 : Vec Ideal S1x512 .f32)
    (v51 : Vec Ideal S1024x512 .bf16) (v54 : Vec Ideal S1x512 .f32) (v62 : Vec Ideal S16x512 .f32) (b : Fin 16) (l : Fin 512) :
    k0_pay2 (F := Ideal) v42 v44 v47 v51 v54 v62 (ix2 b l)
      = (∑ d : Fin 1024, v42 (ix2 b d) * v44 (ix2 d l) + v47 (ix2 (0 : Fin 1) l))
        + Ideal.exp (negHalf * max (∑ d : Fin 1024, v42 (ix2 b d) * v51 (ix2 d l) + v54 (ix2 (0 : Fin 1) l))
            (-(∑ d : Fin 1024, v42 (ix2 b d) * v51 (ix2 d l) + v54 (ix2 (0 : Fin 1) l)))) * v62 (ix2 b l) := by
  unfold k0_pay2
  exact congrArg₂ (fun m z : EReal => m + Ideal.exp (negHalf * max z (-z)) * v62 (ix2 b l))
    (matmul_bias_apply v42 v44 v47 _ _ _ _ b l) (matmul_bias_apply v42 v51 v54 _ _ _ _ b l)

end Cert.PoolHead.K

end
-- ==== Proof.Final.lean ====
import proofs.«109203_g44203803410838_cont_8to1_c_926_9_alg».proof.Proof.Gen.KernelIdeal.Value
import proofs.«109203_g44203803410838_cont_8to1_c_926_9_alg».proof.Proof.Fold
import proofs.«109203_g44203803410838_cont_8to1_c_926_9_alg».proof.Proof.PayHead
import Idealize.ShloMosaic.Lib.Pipeline.Value
import Idealize.ShloMosaic.Lib.ValueIdx

noncomputable section

open scoped BigOperators

namespace Cert.PoolHead.K

open Cert.KernelIdeal Cert.KernelIdeal.Gen Idealize.ShloMosaic Idealize.ShloMosaic.TcCoe Idealize.ShloMosaic.ValueIdx Idealize.SL.Sem Cert.PoolHead
open Idealize.ShloMosaic.Pipeline (Dat)

variable (m : (ℓ : Loc nD τ sig) → Buf (Elt Ideal) ℓ) (ρ : Dev nD → PrngReg)

/-- At the last point the scratch the head reads is the whole pooled sum: the running sum before the point plus the
    last tile's term. -/
theorem scratch_last (c : Dev nD) (t : Fin cfg0.N) (h15 : t.val = 15) (b : Fin 16) (d : Fin 1024) :
    k0_pay1 (F := Ideal) (k0_pay4 (iblk m c 0 t) (iblk m c 2 t) (iblk m c 3 t) (iblk m c 4 t) (iblk m c 5 t) (iblk m c 1 t)
      (outsAt0 m c (t.val - 1) (Nat.lt_of_le_of_lt (Nat.sub_le _ _) t.isLt)).2) (ix2 b d)
      = pooled (argsOf m c) b d := by
  obtain ⟨n, hn⟩ := t
  obtain rfl : n = 15 := h15
  rw [tile_step, ← accAfter_last, accAfter_succ (argsOf m c) 14 (by omega) b d]
  exact congrArg (fun z => z + tileTerm (argsOf m c) ⟨14 + 1, by omega⟩ b d) (scratch_after m c 14 _ b d)

/-- THE OUTPUT BLOCK at the last point is the specification's result, entry by entry. -/
theorem out_last (c : Dev nD) (t : Fin cfg0.N) (h15 : t.val = 15) (b : Fin 16) (l : Fin 512) :
    ((outsAt0 m c t.val t.isLt).1 : Vec Ideal S16x512 .f32) (ix2 b l) = result (argsOf m c) (ix2 b l) := by
  have h0 : ¬t.val % 16 = 0 := by omega
  have h1 : t.val % 16 = 15 := by omega
  rw [outsAt0_C m c t h0 h1]
  dsimp only
  rw [out_C]
  refine (pay2_apply _ _ _ _ _ _ b l).trans ?_
  show _ = head (argsOf m c) (pooled (argsOf m c)) b l
  unfold head zMean zVar
  simp only [scratch_last m c t h15, blk6_apply m c t, blk7_apply m c t, blk8_apply m c t, blk9_apply m c t, blk10_apply m c t]

/-- The one write-back, at the last point, writes the result: the block is the whole [16, 512] array. -/
theorem flushed_eq (c : Dev nD) (t : Fin cfg0.N) (hf : (cfg0.win 11).flush t = true) :
    (dats m 0 c).flushed 11 t = ((cfg0.win 11).blk t).view.read (Elt Ideal) (result (argsOf m c)) := by
  have hN : cfg0.N = 16 := N_0
  have h15 : t.val = 15 := by have := (flush0_11 t).mp hf; have := t.isLt; omega
  have hres : ((outsAt0 m c t.val t.isLt).1 : Vec Ideal S16x512 .f32) = result (argsOf m c) :=
    funext fun i => by rw [eq_ix2 i]; exact out_last m c t h15 (i 0) (i 1)
  obtain rfl : t = t0_15 := Fin.ext h15
  rw [Cert.KernelIdeal.Value.flushed11, hres]
  have hz' : (fun a => win0_11.index t0_15 a * main_v0.ty.shape.size a) = fun _ => 0 :=
    funext fun a => by fin_cases a <;> decide +kernel
  exact (Memref.read_access_unit_zero (Elt Ideal) main_v0 hz' (fun a => by rw [congrFun hz' a]; simp) (result (argsOf m c))).symm

/-- So the result array ends holding the specification's result of the argument arrays. -/
theorem final11 (c : Dev nD) : (dats m 0 c).arrAt 11 cfg0.N = result (argsOf m c) :=
  (dats m 0 c).arrAt_eq_of_cover 11 (result (argsOf m c)) (flushed_eq m c) fun i =>
    ⟨t0_15, (flush0_11 t0_15).mpr rfl, by
      show i ∈ ((View.whole main_v0).slice (win0_11.rect t0_15)).set
      rw [View.set_slice_whole, Rect.mem_set_unit]
      intro a
      have h0 : (i 0 : Nat) < 16 := (i 0).isLt
      have h1 : (i 1 : Nat) < 512 := (i 1).isLt
      match a with
      | ⟨0, _⟩ =>
        show win0_11.index t0_15 0 * win0_11.size 0 ≤ (i 0 : Nat) ∧ (i 0 : Nat) < win0_11.index t0_15 0 * win0_11.size 0 + win0_11.xsize (grid0.coords t0_15) 0
        rw [show win0_11.index t0_15 0 * win0_11.size 0 = 0 from by decide +kernel, show win0_11.xsize (grid0.coords t0_15) 0 = 16 from by decide +kernel]; omega
      | ⟨1, _⟩ =>
        show win0_11.index t0_15 1 * win0_11.size 1 ≤ (i 1 : Nat) ∧ (i 1 : Nat) < win0_11.index t0_15 1 * win0_11.size 1 + win0_11.xsize (grid0.coords t0_15) 1
        rw [show win0_11.index t0_15 1 * win0_11.size 1 = 0 from by decide +kernel, show win0_11.xsize (grid0.coords t0_15) 1 = 512 from by decide +kernel]; omega⟩

/-- The kernel's run, read: the result array at the specification's result, the eleven arguments unchanged. -/
theorem run : θ_run defs (onTc (τ := τ) (main (F := Ideal))) ⟨m, fun _ => 0, ρ⟩ fun r => ∀ c : Dev nD,
      r.2.mem ((c : Thread nD τ).loc main_v0) = result (argsOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2⟩)
    (Cert.KernelIdeal.Value.run_blocks m ρ)

end Cert.PoolHead.K

end
-- ==== Proof.LibRowScatterAdd.lean ====
/-
  THE ROW SCATTER-ADD READ AT AN INDEX. For an operand `x : [N, C]`, an integer array of `E` row numbers and updates
  `upd : [E, C]`, the arrays `jax.ops.segment_sum(upd, idx)` and `x.at[idx].add(upd)` are `stablehlo.scatter` with
  an `add` body, update_window_dims [1], inserted_window_dims [0], scatter_dims_to_operand_dims [0] and
  index_vector_dim 1 over the row numbers as `[E, 1]`. Update element `(e, c')` lands on operand element `(n, c)`
  exactly when `c' = c` and the `e`-th row number, read as a signed integer and NOT clamped, is `n`; an update whose
  row number is negative or at least `N` is dropped. So, over the extended reals, the result's element `(n, c)` is
  `x (n, c)` plus the sum of `upd (e, c)` over the edges `e` whose row number is `n`. Generic in the sizes `N`,
  `E`, `C` and the width of the index words.
-/
import Idealize.ShloMosaic.PureOps.Ideal
import Idealize.ShloMosaic.Lib.ValueIdx

noncomputable section

open scoped BigOperators

namespace Cert.RowScatterAdd

open Idealize.ShloMosaic Idealize.ShloMosaic.ValueIdx

/-- The dimension numbers of `jax.ops.segment_sum(upd, idx)` / `zeros.at[idx].add(upd)` for an operand `[N, C]`, the
    indices as `[E, 1]` and updates `[E, C]`: update_window_dims [1], inserted_window_dims [0],
    scatter_dims_to_operand_dims [0], index_vector_dim 1. -/
abbrev dims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Edge `e` lands on row `n`: its index, read signed and NOT clamped, is `n`. -/
def hits {N E w : Nat} (idx : IVec ⟨2, ![E, 1]⟩ w) (e : Fin E) (n : Fin N) : Prop :=
  (idx (ix2 e (0 : Fin 1))).toInt = (n.val : Int)

instance {N E w : Nat} (idx : IVec ⟨2, ![E, 1]⟩ w) (e : Fin E) (n : Fin N) : Decidable (hits idx e n) := by
  unfold hits; infer_instance

section Coordinates
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis the window of update `(e, c')` starts at the `e`-th row number, read signed. -/
theorem start_row : (dims N E C wf).start (ix2 e c') idx 0 = (idx (ix2 e (0 : Fin 1))).toInt := by
  unfold ScatterDims.start
  rw [dif_pos (show (0 : Fin 2) ∈ (dims N E C wf).scatterDimsToOperandDims from List.mem_singleton.mpr rfl)]
  have hsi : (dims N E C wf).siIdx (ix2 e c') ⟨List.idxOf (0 : Fin 2) (dims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at `0`: the scatter indices do not name that axis. -/
theorem start_col : (dims N E C wf).start (ix2 e c') idx 1 = 0 := by
  unfold ScatterDims.start
  rw [dif_neg (show (1 : Fin 2) ∉ (dims N E C wf).scatterDimsToOperandDims from fun h =>
    Nat.one_ne_zero (congrArg Fin.val (List.mem_singleton.mp h)))]

/-- The operand's axes that take a window coordinate are the column axis alone. -/
theorem mem_sKept (a : Fin 2) : a ∈ (dims N E C wf).sKept ↔ a ≠ 0 := by
  simp [ScatterDims.sKept, Shape.kept, List.mem_filter, List.mem_finRange]

/-- On the row axis, an inserted one, the window coordinate is `0`. -/
theorem window_row : (dims N E C wf).window (ix2 e c') 0 = 0 := by
  unfold ScatterDims.window
  rw [dif_neg (fun h => ((mem_sKept wf 0).mp h) rfl)]

/-- On the column axis the window coordinate of update `(e, c')` is its column `c'`. -/
theorem window_col : (dims N E C wf).window (ix2 e c') 1 = c'.val := by
  unfold ScatterDims.window
  rw [dif_pos ((mem_sKept wf 1).mpr (fun h => Nat.one_ne_zero (congrArg Fin.val h)))]
  rfl

end Coordinates

/-- WHERE AN UPDATE LANDS: update element `(e, c')` lands on operand element `(n, c)` exactly when the columns agree
    and the `e`-th row number, read signed and not clamped, is `n`. -/
theorem resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (dims N E C wf).resultIdx? (ix2 e c') idx = some (ix2 n c) ↔ c' = c ∧ hits idx e n := by
  have hs0 := start_row wf idx e c'
  have hs1 := start_col wf idx e c'
  have hw0 := window_row wf e c'
  have hw1 := window_col wf e c'
  have hn : n.val < N := n.isLt
  have hc' : c'.val < C := c'.isLt
  unfold hits
  unfold ScatterDims.resultIdx?
  split
  · rename_i h
    rw [Option.some.injEq]
    constructor
    · intro hf
      have h0 := congrArg Fin.val (congrFun hf 0)
      have h1 := congrArg Fin.val (congrFun hf 1)
      have hb0 := (h 0).1
      simp only [hs0, hw0] at h0 hb0
      simp only [hs1, hw1] at h1
      refine ⟨Fin.ext ?_, ?_⟩
      · change (((0 : Int) + (c'.val : Int)).toNat) = c.val at h1
        omega
      · change (((idx (ix2 e (0 : Fin 1))).toInt + ((0 : Nat) : Int)).toNat) = n.val at h0
        omega
    · rintro ⟨rfl, hhit⟩
      funext a
      refine Fin.ext ?_
      match a with
      | ⟨0, _⟩ =>
        show ((dims N E C wf).start (ix2 e c') idx 0 + ((dims N E C wf).window (ix2 e c') 0 : Nat)).toNat = n.val
        rw [hs0, hw0, hhit]; omega
      | ⟨1, _⟩ =>
        show ((dims N E C wf).start (ix2 e c') idx 1 + ((dims N E C wf).window (ix2 e c') 1 : Nat)).toNat = c'.val
        rw [hs1, hw1]; omega
  · rename_i h
    constructor
    · intro hf; exact absurd hf (by simp)
    · rintro ⟨rfl, hhit⟩
      exfalso; apply h
      intro a
      match a with
      | ⟨0, _⟩ =>
        show 0 ≤ (dims N E C wf).start (ix2 e c') idx 0 + ((dims N E C wf).window (ix2 e c') 0 : Nat) ∧
          (dims N E C wf).start (ix2 e c') idx 0 + ((dims N E C wf).window (ix2 e c') 0 : Nat) < (N : Int)
        rw [hs0, hw0, hhit]; omega
      | ⟨1, _⟩ =>
        show 0 ≤ (dims N E C wf).start (ix2 e c') idx 1 + ((dims N E C wf).window (ix2 e c') 1 : Nat) ∧
          (dims N E C wf).start (ix2 e c') idx 1 + ((dims N E C wf).window (ix2 e c') 1 : Nat) < (C : Int)
        rw [hs1, hw1]; omega

/-- THE ROW SCATTER-ADD READ AT `(n, c)`: the operand's element plus the sum, over the edges `e` whose row number
    (read signed, not clamped) is `n`, of the update's element `(e, c)`. -/
theorem scatterAdd_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (dims N E C wf) x idx upd (ix2 n c)
      = x (ix2 n c) + ∑ e : Fin E, if hits idx e n then upd (ix2 e c) else 0 := by
  unfold Ideal.hostScatterAdd
  congr 1
  rw [Finset.sum_filter, sum_idx2]
  refine Finset.sum_congr rfl fun e _ => ?_
  have hcongr : ∀ c' : Fin C,
      (if (dims N E C wf).resultIdx? (ix2 e c') idx = some (ix2 n c) then upd (ix2 e c') else 0)
        = if c' = c then (if hits idx e n then upd (ix2 e c') else 0) else 0 := by
    intro c'
    by_cases h1 : c' = c
    · by_cases h2 : hits idx e n
      · rw [if_pos ((resultIdx?_eq_some_iff wf idx e c' n c).mpr ⟨h1, h2⟩), if_pos h1, if_pos h2]
      · rw [if_neg (fun h => h2 ((resultIdx?_eq_some_iff wf idx e c' n c).mp h).2), if_pos h1, if_neg h2]
    · rw [if_neg (fun h => h1 ((resultIdx?_eq_some_iff wf idx e c' n c).mp h).1), if_neg h1]
  rw [Finset.sum_congr rfl (fun c' _ => hcongr c')]
  rw [Finset.sum_ite_eq' Finset.univ c]
  simp only [Finset.mem_univ, if_true]

/-- The same read of the host's accumulating scatter as a program states it (`Host.scatterAdd`) at the ideal instance,
    where it is that exact sum whatever the float format. -/
theorem host_scatterAdd_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w)
    (upd : FVec Ideal ⟨2, ![E, C]⟩ φ) (n : Fin N) (c : Fin C) :
    Host.scatterAdd (F := Ideal) (dims N E C wf) x idx upd (ix2 n c)
      = x (ix2 n c) + ∑ e : Fin E, if hits idx e n then upd (ix2 e c) else 0 :=
  scatterAdd_apply wf x idx upd n c

end Cert.RowScatterAdd

end
-- ==== Proof.RefResult.lean ====
import proofs.«109203_g44203803410838_cont_8to1_c_926_9_alg».proof.Proof.Gen.ReferenceIdeal.Read
import proofs.«109203_g44203803410838_cont_8to1_c_926_9_alg».proof.Proof.Spec
import proofs.«109203_g44203803410838_cont_8to1_c_926_9_alg».proof.Proof.LibRowScatterAdd
import Idealize.ShloMosaic.Lib.ValueIdx
import Idealize.ShloMosaic.Lib.Pipeline.Value
import Idealize.ShloMosaic.PureOps.Ideal.Laws

noncomputable section

open scoped BigOperators

namespace Cert.PoolHead.Ref

open Cert.ReferenceIdeal Cert.ReferenceIdeal.Read Idealize.ShloMosaic Idealize.ShloMosaic.ValueIdx Cert.PoolHead

/-! ## Index equations

The reference's stages read their operands at indices composed from the literal shapes. Each is the index built
from the same coordinates: a contraction reads row `p` of the left operand and column `q` of the right at the
summation index, and a bias row broadcast over the nodes is read at the column alone. -/

section IndexEquations

theorem lidx_v0 (r : Fin 32768) (k : Fin 2048) (j : Fin 1024) : lidx_main_v0 (ix2 r k) j = ix2 r j :=
  funext fun a => Fin.ext (by match a with | ⟨0, _⟩ => rfl | ⟨1, _⟩ => rfl)
theorem ridx_v0 (r : Fin 32768) (k : Fin 2048) (j : Fin 1024) : ridx_main_v0 (ix2 r k) j = ix2 j k :=
  funext fun a => Fin.ext (by match a with | ⟨0, _⟩ => rfl | ⟨1, _⟩ => rfl)
theorem idx_v1v2 (r : Fin 32768) (k : Fin 2048) : idx_main_v1 (idx_main_v2 (ix2 r k)) = ix1 k :=
  funext fun a => Fin.ext (by match a with | ⟨0, _⟩ => rfl)

theorem lidx_v5 (r : Fin 32768) (d : Fin 1024) (k : Fin 2048) : lidx_main_v5 (ix2 r d) k = ix2 r k :=
  funext fun a => Fin.ext (by match a with | ⟨0, _⟩ => rfl | ⟨1, _⟩ => rfl)
theorem ridx_v5 (r : Fin 32768) (d : Fin 1024) (k : Fin 2048) : ridx_main_v5 (ix2 r d) k = ix2 k d :=
  funext fun a => Fin.ext (by match a with | ⟨0, _⟩ => rfl | ⟨1, _⟩ => rfl)
theorem idx_v6v7 (r : Fin 32768) (d : Fin 1024) : idx_main_v6 (idx_main_v7 (ix2 r d)) = ix1 d :=
  funext fun a => Fin.ext (by match a with | ⟨0, _⟩ => rfl)

theorem idx_v11 (e : Fin 32768) : idx_main_v11 (ix2 e (0 : Fin 1)) = ix1 e :=
  funext fun a => Fin.ext (by match a with | ⟨0, _⟩ => rfl)

theorem lidx_v13 (b : Fin 16) (l : Fin 512) (d : Fin 1024) : lidx_main_v13 (ix2 b l) d = ix2 b d :=
  funext fun a => Fin.ext (by match a with | ⟨0, _⟩ => rfl | ⟨1, _⟩ => rfl)
theorem ridx_v13 (b : Fin 16) (l : Fin 512) (d : Fin 1024) : ridx_main_v13 (ix2 b l) d = ix2 d l :=
  funext fun a => Fin.ext (by match a with | ⟨0, _⟩ => rfl | ⟨1, _⟩ => rfl)
theorem idx_v14v15 (b : Fin 16) (l : Fin 512) : idx_main_v14 (idx_main_v15 (ix2 b l)) = ix1 l :=
  funext fun a => Fin.ext (by match a with | ⟨0, _⟩ => rfl)

theorem lidx_v17 (b : Fin 16) (l : Fin 512) (d : Fin 1024) : lidx_main_v17 (ix2 b l) d = ix2 b d :=
  funext fun a => Fin.ext (by match a with | ⟨0, _⟩ => rfl | ⟨1, _⟩ => rfl)
theorem ridx_v17 (b : Fin 16) (l : Fin 512) (d : Fin 1024) : ridx_main_v17 (ix2 b l) d = ix2 d l :=
  funext fun a => Fin.ext (by match a with | ⟨0, _⟩ => rfl | ⟨1, _⟩ => rfl)
theorem idx_v18v19 (b : Fin 16) (l : Fin 512) : idx_main_v18 (idx_main_v19 (ix2 b l)) = ix1 l :=
  funext fun a => Fin.ext (by match a with | ⟨0, _⟩ => rfl)

end IndexEquations

section Stages

variable (x0 : (⟨S32768x1024, .f32⟩ : BufTy).Contents (Elt Ideal)) (x1 : (⟨S32768, .i32⟩ : BufTy).Contents (Elt Ideal))
  (x2 : (⟨S1024x2048, .f32⟩ : BufTy).Contents (Elt Ideal)) (x3 : (⟨S2048, .f32⟩ : BufTy).Contents (Elt Ideal))
  (x4 : (⟨S2048x1024, .f32⟩ : BufTy).Contents (Elt Ideal)) (x5 : (⟨S1024, .f32⟩ : BufTy).Contents (Elt Ideal))
  (x6 : (⟨S1024x512, .f32⟩ : BufTy).Contents (Elt Ideal)) (x7 : (⟨S512, .f32⟩ : BufTy).Contents (Elt Ideal))
  (x8 : (⟨S1024x512, .f32⟩ : BufTy).Contents (Elt Ideal)) (x9 : (⟨S512, .f32⟩ : BufTy).Contents (Elt Ideal))
  (x10 : (⟨S16x512, .f32⟩ : BufTy).Contents (Elt Ideal))

/-- The first dense layer with its rectified bias: node `r`, unit `k`. -/
theorem hidden1_stage (r : Fin 32768) (k : Fin 2048) :
    val_main_v4 (F := Ideal) x0 x2 x3 (ix2 r k)
      = hidden1 ⟨x0, x1, x2, x3, x4, x5, x6, x7, x8, x9, x10⟩ r k := by
  rw [val_main_v4_apply, val_main_v3_apply, val_main_v0_apply, val_main_v2_apply, val_main_v1_apply,
    val_main_call0_v0_apply, val_main_call0_cst_apply]
  unfold hidden1 zero32
  simp only [Ideal.maximumf_def, Ideal.addf_def, Ideal.ofBits_def, lidx_v0, ridx_v0, idx_v1v2]

/-- The second dense layer with its rectified bias: node `r`, unit `d`; its left operand is the first layer. -/
theorem hidden2_stage (r : Fin 32768) (d : Fin 1024) :
    val_main_v9 (F := Ideal) x0 x2 x3 x4 x5 (ix2 r d)
      = hidden2 ⟨x0, x1, x2, x3, x4, x5, x6, x7, x8, x9, x10⟩ r d := by
  rw [val_main_v9_apply, val_main_v8_apply, val_main_v5_apply, val_main_v7_apply, val_main_v6_apply,
    val_main_call1_v0_apply, val_main_call1_cst_apply]
  unfold hidden2 zero32
  simp only [Ideal.maximumf_def, Ideal.addf_def, Ideal.ofBits_def, lidx_v5, ridx_v5, idx_v6v7,
    hidden1_stage x0 x1 x2 x3 x4 x5 x6 x7 x8 x9 x10]

/-- Node `e`'s row lands on graph `b` exactly when its word, read signed, names `b`: the scatter's row numbers are
    the graph words laid out as a column. -/
theorem hits_iff_names (e : Fin 32768) (b : Fin 16) :
    Cert.RowScatterAdd.hits (N := 16) (val_main_v11 (F := Ideal) x1) e b ↔ names (x1 (ix1 e)) b := by
  unfold Cert.RowScatterAdd.hits names
  rw [val_main_v11_apply, idx_v11]

/-- The segment sum: graph `b`'s row is the zero word plus the sum of the second hidden rows of the nodes that name
    `b`; a node whose word names no graph is dropped. -/
theorem pooled_stage (b : Fin 16) (d : Fin 1024) :
    val_main_v12 (F := Ideal) x0 x1 x2 x3 x4 x5 (ix2 b d)
      = pooled ⟨x0, x1, x2, x3, x4, x5, x6, x7, x8, x9, x10⟩ b d := by
  unfold val_main_v12
  show Host.scatterAdd (F := Ideal)
      (Cert.RowScatterAdd.dims 16 32768 1024 Facts₀.scatter_S16x1024_S32768x1_S32768x1024_1_0_0_1_wf)
      (val_main_v10 (F := Ideal)) (val_main_v11 (F := Ideal) x1) (val_main_v9 (F := Ideal) x0 x2 x3 x4 x5) (ix2 b d) = _
  rw [Cert.RowScatterAdd.host_scatterAdd_apply, val_main_v10_apply, val_main_cst_apply]
  unfold pooled
  rw [Ideal.ofBits_def, Ideal.ofBits_zero_f32, zero_add]
  refine Finset.sum_congr rfl fun e _ => ?_
  exact if_congr (hits_iff_names x1 e b) (hidden2_stage x0 x1 x2 x3 x4 x5 x6 x7 x8 x9 x10 e d) rfl

/-- The mean head over the pooled rows. -/
theorem zMean_stage (b : Fin 16) (l : Fin 512) :
    val_main_v16 (F := Ideal) x0 x1 x2 x3 x4 x5 x6 x7 (ix2 b l)
      = zMean ⟨x0, x1, x2, x3, x4, x5, x6, x7, x8, x9, x10⟩
          (pooled ⟨x0, x1, x2, x3, x4, x5, x6, x7, x8, x9, x10⟩) b l := by
  rw [val_main_v16_apply, val_main_v13_apply, val_main_v15_apply, val_main_v14_apply]
  unfold zMean
  simp only [Ideal.addf_def, lidx_v13, ridx_v13, idx_v14v15,
    pooled_stage x0 x1 x2 x3 x4 x5 x6 x7 x8 x9 x10]

/-- The variance head over the pooled rows. -/
theorem zVar_stage (b : Fin 16) (l : Fin 512) :
    val_main_v20 (F := Ideal) x0 x1 x2 x3 x4 x5 x8 x9 (ix2 b l)
      = zVar ⟨x0, x1, x2, x3, x4, x5, x6, x7, x8, x9, x10⟩
          (pooled ⟨x0, x1, x2, x3, x4, x5, x6, x7, x8, x9, x10⟩) b l := by
  rw [val_main_v20_apply, val_main_v17_apply, val_main_v19_apply, val_main_v18_apply]
  unfold zVar
  simp only [Ideal.addf_def, lidx_v17, ridx_v17, idx_v18v19,
    pooled_stage x0 x1 x2 x3 x4 x5 x6 x7 x8 x9 x10]

end Stages

/-- The reference's result term is the specification's result of its eleven arguments. -/
theorem ref_eq (x0 : (⟨S32768x1024, .f32⟩ : BufTy).Contents (Elt Ideal)) (x1 : (⟨S32768, .i32⟩ : BufTy).Contents (Elt Ideal))
    (x2 : (⟨S1024x2048, .f32⟩ : BufTy).Contents (Elt Ideal)) (x3 : (⟨S2048, .f32⟩ : BufTy).Contents (Elt Ideal))
    (x4 : (⟨S2048x1024, .f32⟩ : BufTy).Contents (Elt Ideal)) (x5 : (⟨S1024, .f32⟩ : BufTy).Contents (Elt Ideal))
    (x6 : (⟨S1024x512, .f32⟩ : BufTy).Contents (Elt Ideal)) (x7 : (⟨S512, .f32⟩ : BufTy).Contents (Elt Ideal))
    (x8 : (⟨S1024x512, .f32⟩ : BufTy).Contents (Elt Ideal)) (x9 : (⟨S512, .f32⟩ : BufTy).Contents (Elt Ideal))
    (x10 : (⟨S16x512, .f32⟩ : BufTy).Contents (Elt Ideal)) :
    val_main_v27 (F := Ideal) x0 x1 x2 x3 x4 x5 x6 x7 x8 x9 x10
      = result ⟨x0, x1, x2, x3, x4, x5, x6, x7, x8, x9, x10⟩ := by
  funext i
  obtain ⟨b, l, rfl⟩ : ∃ (b : Fin 16) (l : Fin 512), i = ix2 b l := ⟨i 0, i 1, eq_ix2 i⟩
  -- the specification's head, its exponent respelled ½ · (−|z|) as the reference writes it
  show _ = head ⟨x0, x1, x2, x3, x4, x5, x6, x7, x8, x9, x10⟩
    (pooled ⟨x0, x1, x2, x3, x4, x5, x6, x7, x8, x9, x10⟩) b l
  rw [head_eq_head']
  unfold head' half
  -- the reference's last stages, outermost first: sum, product with the noise, exponential, scaling, negation, modulus
  rw [val_main_v27_apply, val_main_v26_apply, val_main_v25_apply, val_main_v24_apply, val_main_v23_apply,
    val_main_cst_0_apply, val_main_v22_apply, val_main_v21_apply,
    zMean_stage x0 x1 x2 x3 x4 x5 x6 x7 x8 x9 x10, zVar_stage x0 x1 x2 x3 x4 x5 x6 x7 x8 x9 x10]
  simp only [Ideal.addf_def, Ideal.mulf_def, Ideal.hostUnary_exp_def, Ideal.hostNegf_def, Ideal.hostAbsf_def,
    Ideal.negf_def, Ideal.absf_def, Ideal.ofBits_def]

end Cert.PoolHead.Ref

end
-- ==== Proof.lean ====
/-
  The claim: a fused graph encoder against its plain reference, over the extended reals.

  Both programs compute, for 32768 nodes in 16 graphs, two dense layers with a rectified bias per node, the sum of
  the second hidden rows over the nodes of each graph, and a sampled head `zMean + exp (−½·|zVar|) · eps` over the
  pooled rows (Proof/Spec.lean states it as one function `result` of the eleven argument arrays).

  The kernel walks the nodes in 16 tiles of 2048. Per tile it forms the two hidden layers, builds a 16 × 2048
  indicator matrix (graph b against the tile's graph words) and adds its product with the hidden rows to a running
  sum kept across the tiles, which starts at zero; after the last tile it applies the head. Reading the running sum
  after every tile (Proof/Fold.lean, by induction on the tile) shows it is the tile-by-tile form of the pooled sum, and
  the block written back at the last tile is `result` (Proof/Final.lean). The reference sums over all nodes at once
  with a scatter-add that drops a node whose word names no graph — as the indicator matrix does — and writes the
  exponent `½·(−|z|)`; it is `result` too (Proof/RefResult.lean). The two sums agree because addition of extended
  reals is associative and commutative, and `0·x = 0`, `1·x = x` hold for every extended real: the inputs' finiteness
  is not used. The idealization rewrote nothing, so `preserves` is `True`.
-/
import proofs.«109203_g44203803410838_cont_8to1_c_926_9_alg».proof.Defs
import proofs.«109203_g44203803410838_cont_8to1_c_926_9_alg».proof.Proof.Gen.Kernel
import proofs.«109203_g44203803410838_cont_8to1_c_926_9_alg».proof.Proof.Gen.Kernel.Skeleton
import proofs.«109203_g44203803410838_cont_8to1_c_926_9_alg».proof.Proof.Gen.Kernel.Launch
import proofs.«109203_g44203803410838_cont_8to1_c_926_9_alg».proof.Proof.Gen.Kernel.Points
import proofs.«109203_g44203803410838_cont_8to1_c_926_9_alg».proof.Proof.Gen.Kernel.Frame
import proofs.«109203_g44203803410838_cont_8to1_c_926_9_alg».proof.Proof.Gen.KernelIdeal
import proofs.«109203_g44203803410838_cont_8to1_c_926_9_alg».proof.Proof.Gen.KernelIdeal.Skeleton
import proofs.«109203_g44203803410838_cont_8to1_c_926_9_alg».proof.Proof.Gen.KernelIdeal.Launch
import proofs.«109203_g44203803410838_cont_8to1_c_926_9_alg».proof.Proof.Gen.KernelIdeal.Points
import proofs.«109203_g44203803410838_cont_8to1_c_926_9_alg».proof.Proof.Gen.KernelIdeal.Frame
import proofs.«109203_g44203803410838_cont_8to1_c_926_9_alg».proof.Proof.Gen.ReferenceIdeal
import proofs.«109203_g44203803410838_cont_8to1_c_926_9_alg».proof.Proof.Gen.Pre_finite_inputs
import proofs.«109203_g44203803410838_cont_8to1_c_926_9_alg».proof.Proof.Gen.KernelIdeal.Value
import proofs.«109203_g44203803410838_cont_8to1_c_926_9_alg».proof.Proof.Gen.ReferenceIdeal.Run
import proofs.«109203_g44203803410838_cont_8to1_c_926_9_alg».proof.Proof.Gen.ReferenceIdeal.Read
import proofs.«109203_g44203803410838_cont_8to1_c_926_9_alg».proof.Proof.Final
import proofs.«109203_g44203803410838_cont_8to1_c_926_9_alg».proof.Proof.RefResult
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at `result` of its arguments, and the reference's at
    `result` of arguments that agree with them. -/
theorem algebraic : Cert.algebraic_KernelIdeal_ReferenceIdeal := by
  intro m ρ m' ρ' _ hagree
  refine ⟨fun c => Cert.PoolHead.result (Cert.PoolHead.K.argsOf m c), Cert.PoolHead.K.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.PoolHead.Ref.ref_eq,
    (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
